-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S64x512 : Shape := ⟨2, ![64, 512]⟩
abbrev S64 : Shape := ⟨1, ![64]⟩
abbrev S64x128 : Shape := ⟨2, ![64, 128]⟩
abbrev S1x64 : Shape := ⟨2, ![1, 64]⟩
abbrev S40x64 : Shape := ⟨2, ![40, 64]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S1x64 : S_.BroadcastsInDim S1x64 (![] : Fin 0 → Fin S1x64.rank)
  reducesTo_S1x64_S_d0_1 : S1x64.ReducesTo [0, 1] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S1x64 .f32) (main_arg9 : FVec F S40x64 .f32) (main_arg10 : FVec F S40 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S40x64 .f32 := Host.absf main_arg9
  let main_cst_14 : FVec F S_ .f32 := constant S_ .f32 0x7F800000#32
  let main_v40 : FVec F S40x64 .f32 := broadcastInDim S40x64 ![] bcast_S_S40x64 main_cst_14
  let main_v41 : IVec S40x64 1 := cmpf .olt main_v39 main_v40
  let main_c_15 : IVec S_ 1 := constantI S_ 1 1#1
  let main_v42 : IVec S_ 1 := (fun x v => Host.reduce IntOp.andi x v reducesTo_S40x64_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S64 .f32) (main_arg6 : FVec F S64x128 .f32) (main_arg7 : FVec F S64 .f32) (main_arg8 : FVec F S1x64 .f32) (main_arg9 : FVec F S40x64 .f32) (main_arg10 : FVec F S40 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x512 .f32) (main_arg1 : IVec S2x1600000 32) (main_arg2 : FVec F S64x512 .f32) (main_arg3 : FVec F S64 .f32) (main_arg4 : FVec F S64x128 .f32) (main_arg5 : FVec F S64 .f32) (main_arg6 : FVec F S64x128 .f32) (main_arg7 : FVec F S64 .f32) (main_arg8 : FVec F S1x64 .f32) (main_arg9 : FVec F S40x64 .f32) (main_arg10 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_v13 main_v16
-- ==== Kernel.lean ====
abbrev S100000x512 : Shape := ⟨2, ![100000, 512]⟩
abbrev S2x1600000 : Shape := ⟨2, ![2, 1600000]⟩
abbrev S64x512 : Shape := ⟨2, ![64, 512]⟩
abbrev S64 : Shape := ⟨1, ![64]⟩
abbrev S64x128 : Shape := ⟨2, ![64, 128]⟩
abbrev S1x64 : Shape := ⟨2, ![1, 64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S512x64 : Shape := ⟨2, ![512, 64]⟩
abbrev S100000x64 : Shape := ⟨2, ![100000, 64]⟩
abbrev S2000x512 : Shape := ⟨2, ![2000, 512]⟩
abbrev S2000x64 : Shape := ⟨2, ![2000, 64]⟩
abbrev S1600000x64 : Shape := ⟨2, ![1600000, 64]⟩
abbrev S4000x64 : Shape := ⟨2, ![4000, 64]⟩
abbrev S64x40 : Shape := ⟨2, ![64, 40]⟩
abbrev S1x40 : Shape := ⟨2, ![1, 40]⟩
abbrev S100000x40 : Shape := ⟨2, ![100000, 40]⟩
abbrev S5000x64 : Shape := ⟨2, ![5000, 64]⟩
abbrev S5000x40 : Shape := ⟨2, ![5000, 40]⟩
abbrev S5000 : Shape := ⟨1, ![5000]⟩
abbrev S5000x1 : Shape := ⟨2, ![5000, 1]⟩

abbrev nBuf : Space → Nat
  | .hbm => 106
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S64x512, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S40x64, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S1600000, .f32⟩
  | .hbm, ⟨54, _⟩ => ⟨S1600000, .f32⟩
  | .hbm, ⟨55, _⟩ => ⟨S512x64, .f32⟩
  | .hbm, ⟨56, _⟩ => ⟨S1x64, .f32⟩
  | .hbm, ⟨57, _⟩ => ⟨S100000x64, .f32⟩
  | .hbm, ⟨58, _⟩ => ⟨S1x64, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x64, .f32⟩
  | .hbm, ⟨63, _⟩ => ⟨S_, .f32⟩
  | .hbm, ⟨64, _⟩ => ⟨S1x64, .f32⟩
  | .hbm, ⟨65, _⟩ => ⟨S1x64, .f32⟩
  | .hbm, ⟨66, _⟩ => ⟨S_, .f32⟩
  | .hbm, ⟨67, _⟩ => ⟨S1x64, .f32⟩
  | .hbm, ⟨68, _⟩ => ⟨S1x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S1600000x1, .f32⟩
  | .hbm, ⟨79, _⟩ => ⟨S1600000x64, .f32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x1, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x64, .f32⟩
  | .hbm, ⟨103, _⟩ => ⟨S64x40, .f32⟩
  | .hbm, ⟨104, _⟩ => ⟨S1x40, .f32⟩
  | .hbm, ⟨105, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S1x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | .local _ .vmem, ⟨20, _⟩ => ⟨S5000x64, .f32⟩
  | .local _ .vmem, ⟨21, _⟩ => ⟨S5000x64, .f32⟩
  | .local _ .vmem, ⟨22, _⟩ => ⟨S64x40, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S64x512_S512x64_1_0 : S64x512.Transposes [1, 0] S512x64
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S1x64 : S_.BroadcastsInDim S1x64 (![] : Fin 0 → Fin S1x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  transposes_S40x64_S64x40_1_0 : S40x64.Transposes [1, 0] S64x40
  shapeCasts_S40_S1x40 : S40.ShapeCasts S1x40
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x512_S512x64_S2000x64_1_0_0_1_n_n_wf : DotDims.WF S2000x512 S512x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S64x512 : Shape := ⟨2, ![64, 512]⟩
abbrev S64 : Shape := ⟨1, ![64]⟩
abbrev S64x128 : Shape := ⟨2, ![64, 128]⟩
abbrev S1x64 : Shape := ⟨2, ![1, 64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S512x64 : Shape := ⟨2, ![512, 64]⟩
abbrev S100000x64 : Shape := ⟨2, ![100000, 64]⟩
abbrev S1600000x64 : Shape := ⟨2, ![1600000, 64]⟩
abbrev S1600000x128 : Shape := ⟨2, ![1600000, 128]⟩
abbrev S128x64 : Shape := ⟨2, ![128, 64]⟩
abbrev S64x40 : Shape := ⟨2, ![64, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 168
  | .vmem => 0
  | .smem => 0
  | _ => 0

abbrev hbmTy0_0 (i : Nat) : BufTy := match i % 128 with
  | 0 => ⟨S100000x512, .f32⟩
  | 1 => ⟨S2x1600000, .i32⟩
  | 2 => ⟨S64x512, .f32⟩
  | 3 => ⟨S64, .f32⟩
  | 4 => ⟨S64x128, .f32⟩
  | 5 => ⟨S64, .f32⟩
  | 6 => ⟨S64x128, .f32⟩
  | 7 => ⟨S64, .f32⟩
  | 8 => ⟨S1x64, .f32⟩
  | 9 => ⟨S40x64, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S100000, .f32⟩
  | 17 => ⟨S_, .f32⟩
  | 18 => ⟨S1600000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1600000x1, .f32⟩
  | 55 => ⟨S512x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S_, .f32⟩
  | 69 => ⟨S1x64, .f32⟩
  | 70 => ⟨S1x64, .f32⟩
  | 71 => ⟨S_, .f32⟩
  | 72 => ⟨S1x64, .f32⟩
  | 73 => ⟨S1x64, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S1600000x128, .f32⟩
  | 93 => ⟨S128x64, .f32⟩
  | 94 => ⟨S1600000x64, .f32⟩
  | 95 => ⟨S1x64, .f32⟩
  | 96 => ⟨S1600000x64, .f32⟩
  | 97 => ⟨S1600000x64, .f32⟩
  | 98 => ⟨S1600000x64, .f32⟩
  | 99 => ⟨S_, .f32⟩
  | 100 => ⟨S1600000x64, .f32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000x64, .f32⟩
  | 109 => ⟨S100000x64, .f32⟩
  | 110 => ⟨S100000x64, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x512, .f32⟩

abbrev hbmTy0_1 (i : Nat) : BufTy := match i % 128 with
  | 0 => ⟨S1600000x64, .f32⟩
  | 1 => ⟨S1600000x128, .f32⟩
  | 2 => ⟨S128x64, .f32⟩
  | 3 => ⟨S1600000x64, .f32⟩
  | 4 => ⟨S1x64, .f32⟩
  | 5 => ⟨S1600000x64, .f32⟩
  | 6 => ⟨S1600000x64, .f32⟩
  | 7 => ⟨S1600000x64, .f32⟩
  | 8 => ⟨S_, .f32⟩
  | 9 => ⟨S1600000x64, .f32⟩
  | 10 => ⟨S1600000x64, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S100000x64, .f32⟩
  | 18 => ⟨S100000x64, .f32⟩
  | 19 => ⟨S100000x64, .f32⟩
  | 20 => ⟨S64x40, .f32⟩
  | 21 => ⟨S100000x40, .f32⟩
  | 22 => ⟨S1x40, .f32⟩
  | 23 => ⟨S100000x40, .f32⟩
  | 24 => ⟨S100000x40, .f32⟩
  | 25 => ⟨S_, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x40, .f32⟩
  | 32 => ⟨S100000x40, .f32⟩
  | 33 => ⟨S100000x40, .f32⟩
  | 34 => ⟨S_, .f32⟩
  | 35 => ⟨S100000, .f32⟩
  | 36 => ⟨S100000x1, .f32⟩
  | 37 => ⟨S100000x1, .f32⟩
  | 38 => ⟨S100000x40, .f32⟩
  | 39 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_c_14 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_c_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_21 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_22 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call2_cst : Ref sig .tc := ⟨.hbm, 153, rfl⟩
abbrev main_call2_v0 : Ref sig .tc := ⟨.hbm, 154, rfl⟩
abbrev main_call2_cst_0 : Ref sig .tc := ⟨.hbm, 155, rfl⟩
abbrev main_call2_v1 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_call2_v5 : Ref sig .tc := ⟨.hbm, 160, rfl⟩
abbrev main_call2_v6 : Ref sig .tc := ⟨.hbm, 161, rfl⟩
abbrev main_call2_cst_1 : Ref sig .tc := ⟨.hbm, 162, rfl⟩
abbrev main_call2_v7 : Ref sig .tc := ⟨.hbm, 163, rfl⟩
abbrev main_call2_v8 : Ref sig .tc := ⟨.hbm, 164, rfl⟩
abbrev main_call2_v9 : Ref sig .tc := ⟨.hbm, 165, rfl⟩
abbrev main_call2_v10 : Ref sig .tc := ⟨.hbm, 166, rfl⟩
abbrev main_v113 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1x64 : S_.BroadcastsInDim S1x64 (![] : Fin 0 → Fin S1x64.rank)
  concatenates_S1600000x64_S1600000x64_S1600000x128_d1 : Shape.Concatenates [S1600000x64, S1600000x64] S1600000x128 1
  transposes_S64x128_S128x64_1_0 : S64x128.Transposes [1, 0] S128x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's run, with every buffer read at the last boundary.

  @main is ten segments: three stretches of host operations, the dense layer's region, a stretch, the first update
  region, a stretch, the second update region, a stretch, the log-softmax region. The buffer contents are folded
  through these segments from W0, the launch memory, to W10, the contents when @main returns: a stretch applies its
  operations, a region replaces its output array by what its write-backs leave and keeps every other buffer. Every
  weakly fair execution of the ten segments terminates without a fault, and every buffer that outlives a region ends
  holding what W10 says; the two results and the eleven arguments are read off that.
-/
import proofs.«141536_j6889127543055_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that is not a region's own
    staging space ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The two results at the last boundary's contents, the arguments as launched. -/
theorem run_results : θ_run defs (onTc (τ := τ) (main (F := F))) ⟨m, fun _ => 0, ρ⟩ (fun r => ∀ c : Dev nD,
      r.2.mem ((c.tc : Thread nD τ).loc main_v73) = W10 m ρ c (Proc.devRef .tc main_v73)
      ∧ r.2.mem ((c.tc : Thread nD τ).loc main_v70) = W10 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v73 (by decide)),
       h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)
    (run_all m ρ)

end Cert.KernelIdeal.Whole

end
-- ==== Proof.Stages.lean ====
/-
  The three dense stages of the network, each as one function of whole arrays, row by row.

  With x the node features, W and b a layer's weights and bias, s the residual scale, and h, raw, agg node embeddings:
    the dense layer    lin x W b       at (r, j)  is  max (Σ_k x[r,k]·W[k,j] + b[0,j]) 0,
    one update         upd agg raw s   at (r, j)  is  s[0,j]·raw[r,j] + agg[r,j],
    the output layer   fin h W b       at (r, j)  is  z[r,j] − log Σ_k exp z[r,k],   z[r,j] = a[r,j] − max_k a[r,k],
                                                      a[r,j] = Σ_k h[r,k]·W[k,j] + b[0,j].
  Every entry of row r of a result depends on row r of the row-indexed operands only, so the definitions are stated for
  any number n of rows: at the block's height they describe what one grid point computes from its blocks, at the
  array's height what the whole region, or the reference's line of array operations, computes.
  The row maximum is the fold of max from the word 0xFF800000, which is −∞, the bottom of the extended reals.
-/
import Idealize.ShloMosaic.PureOps.Ideal
import Idealize.ShloMosaic.PureOps.Ideal.Laws
import Idealize.ShloMosaic.Lib.ValueIdx

noncomputable section

namespace Cert.Stages

open Idealize.ShloMosaic Idealize.ShloMosaic.ValueIdx

/-- The word 0xBF800000 denotes −1. -/
theorem ofBits_negOne : Ideal.ofBits .f32 0xBF800000#32 = ((-1 : ℝ) : EReal) := by
  simp [Ideal.ofBits, Ideal.ieee, -EReal.coe_mul]; norm_num

/-- Multiplying by the word 0xBF800000 negates, on every extended real. -/
theorem negOne_mul (a : EReal) : Ideal.ofBits .f32 0xBF800000#32 * a = -a := by
  rw [ofBits_negOne, EReal.coe_neg, EReal.coe_one, neg_one_mul]

/-- The word 0xFF800000 denotes −∞. -/
theorem ofBits_negInf : Ideal.ofBits .f32 0xFF800000#32 = (⊥ : EReal) := by
  simp [Ideal.ofBits, Ideal.ieee]

/-- The maximum with −∞ is the other operand. -/
theorem max_negInf (a : EReal) : max (Ideal.ofBits .f32 0xFF800000#32) a = a := by
  rw [ofBits_negInf]; exact max_eq_right bot_le

variable {n : ℕ}

/-! ## The dense layer -/

/-- max (Σ_k x[r,k]·W[k,j] + b[0,j]) 0. -/
def linAt (x : FVec Ideal ⟨2, ![n, 512]⟩ .f32) (w : FVec Ideal ⟨2, ![512, 64]⟩ .f32) (b : FVec Ideal ⟨2, ![1, 64]⟩ .f32)
    (r : Fin n) (j : Fin 64) : EReal :=
  max ((∑ k : Fin 512, x (ix2 r k) * w (ix2 k j)) + b (ix2 (0 : Fin 1) j)) (Ideal.ofBits .f32 0x00000000#32)

def lin (x : FVec Ideal ⟨2, ![n, 512]⟩ .f32) (w : FVec Ideal ⟨2, ![512, 64]⟩ .f32) (b : FVec Ideal ⟨2, ![1, 64]⟩ .f32) :
    FVec Ideal ⟨2, ![n, 64]⟩ .f32 := fun i => linAt x w b (i 0) (i 1)

theorem lin_apply (x : FVec Ideal ⟨2, ![n, 512]⟩ .f32) (w : FVec Ideal ⟨2, ![512, 64]⟩ .f32) (b : FVec Ideal ⟨2, ![1, 64]⟩ .f32)
    (r : Fin n) (j : Fin 64) : lin x w b (ix2 r j) = linAt x w b r j := rfl

/-! ## One update -/

/-- s[0,j]·raw[r,j] + agg[r,j]. -/
def updAt (agg raw : FVec Ideal ⟨2, ![n, 64]⟩ .f32) (s : FVec Ideal ⟨2, ![1, 64]⟩ .f32) (r : Fin n) (j : Fin 64) : EReal :=
  s (ix2 (0 : Fin 1) j) * raw (ix2 r j) + agg (ix2 r j)

def upd (agg raw : FVec Ideal ⟨2, ![n, 64]⟩ .f32) (s : FVec Ideal ⟨2, ![1, 64]⟩ .f32) : FVec Ideal ⟨2, ![n, 64]⟩ .f32 :=
  fun i => updAt agg raw s (i 0) (i 1)

theorem upd_apply (agg raw : FVec Ideal ⟨2, ![n, 64]⟩ .f32) (s : FVec Ideal ⟨2, ![1, 64]⟩ .f32) (r : Fin n) (j : Fin 64) :
    upd agg raw s (ix2 r j) = updAt agg raw s r j := rfl

/-! ## The output layer -/

/-- a[r,j] = Σ_k h[r,k]·W[k,j] + b[0,j]. -/
def logitAt (h : FVec Ideal ⟨2, ![n, 64]⟩ .f32) (w : FVec Ideal ⟨2, ![64, 40]⟩ .f32) (b : FVec Ideal ⟨2, ![1, 40]⟩ .f32)
    (r : Fin n) (j : Fin 40) : EReal :=
  (∑ k : Fin 64, h (ix2 r k) * w (ix2 k j)) + b (ix2 (0 : Fin 1) j)

/-- max_k a[r,k], folded from −∞. -/
def rowMaxAt (h : FVec Ideal ⟨2, ![n, 64]⟩ .f32) (w : FVec Ideal ⟨2, ![64, 40]⟩ .f32) (b : FVec Ideal ⟨2, ![1, 40]⟩ .f32)
    (r : Fin n) : EReal :=
  (Finset.univ : Finset (Fin 40)).fold max (Ideal.ofBits .f32 0xFF800000#32) (fun k => logitAt h w b r k)

/-- z[r,j] = a[r,j] − max_k a[r,k]. -/
def shiftedAt (h : FVec Ideal ⟨2, ![n, 64]⟩ .f32) (w : FVec Ideal ⟨2, ![64, 40]⟩ .f32) (b : FVec Ideal ⟨2, ![1, 40]⟩ .f32)
    (r : Fin n) (j : Fin 40) : EReal :=
  logitAt h w b r j - rowMaxAt h w b r

/-- z[r,j] − log Σ_k exp z[r,k]. -/
def finAt (h : FVec Ideal ⟨2, ![n, 64]⟩ .f32) (w : FVec Ideal ⟨2, ![64, 40]⟩ .f32) (b : FVec Ideal ⟨2, ![1, 40]⟩ .f32)
    (r : Fin n) (j : Fin 40) : EReal :=
  shiftedAt h w b r j - Ideal.log (∑ k : Fin 40, Ideal.exp (shiftedAt h w b r k))

def fin (h : FVec Ideal ⟨2, ![n, 64]⟩ .f32) (w : FVec Ideal ⟨2, ![64, 40]⟩ .f32) (b : FVec Ideal ⟨2, ![1, 40]⟩ .f32) :
    FVec Ideal ⟨2, ![n, 40]⟩ .f32 := fun i => finAt h w b (i 0) (i 1)

theorem fin_apply (h : FVec Ideal ⟨2, ![n, 64]⟩ .f32) (w : FVec Ideal ⟨2, ![64, 40]⟩ .f32) (b : FVec Ideal ⟨2, ![1, 40]⟩ .f32)
    (r : Fin n) (j : Fin 40) : fin h w b (ix2 r j) = finAt h w b r j := rfl

end Cert.Stages

end
-- ==== Proof.Pay0.lean ====
/-
  The dense layer's body: what one grid point computes from its blocks.

  The body loads a 2000-row block x of the features, the whole transposed weight W [512, 64] and the bias row b [1, 64],
  multiplies x·W into a zero accumulator (the change of float format before the product is the identity on the
  extended reals), adds b along the rows and takes the maximum with 0. At (r, j) that is
  max (Σ_k x[r,k]·W[k,j] + b[0,j]) 0: the dense layer of the 2000 rows.
-/
import proofs.«141536_j6889127543055_1_alg».proof.Proof.Gen.KernelIdeal.Skeleton
import proofs.«141536_j6889127543055_1_alg».proof.Proof.Stages
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Stages

/-- The product's left operand index at output (r, ·) keeps the row. -/
theorem mm0_lhs0 (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl

/-- The product's right operand index at output (·, j) keeps the column. -/
theorem mm0_rhs1 (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- The [2000, 512] × [512, 64] product into the zero accumulator, at (r, j): Σ_k A[r,k]·B[k,j]. -/
theorem mm0_apply (A : FVec Ideal S2000x512 .bf16) (B : FVec Ideal S512x64 .bf16) (r : Fin 2000) (j : Fin 64) :
    FloatOps.matmul dot_S2000x512_S512x64_S2000x64_1_0_0_1_n_n none A B (constant (F := Ideal) S2000x64 .f32 0x00000000#32) (ix2 r j)
      = ∑ k : Fin 512, A (ix2 r k) * B (ix2 k j) := by
  rw [Ideal.matmul_constant_zero_apply, ← Equiv.sum_comp (contrEquiv1 dot_S2000x512_S512x64_S2000x64_1_0_0_1_n_n 512 rfl rfl).symm]
  refine Finset.sum_congr rfl fun k _ => ?_
  have hk := contrEquiv1_symm_val dot_S2000x512_S512x64_S2000x64_1_0_0_1_n_n 512 rfl rfl k
  have el : dot_S2000x512_S512x64_S2000x64_1_0_0_1_n_n.lhsIdx (ix2 r j) ((contrEquiv1 dot_S2000x512_S512x64_S2000x64_1_0_0_1_n_n 512 rfl rfl).symm k) = ix2 r k := funext fun a => Fin.ext (by
    match a with
    | ⟨0, _⟩ => exact mm0_lhs0 _ _
    | ⟨1, _⟩ => exact (dot_S2000x512_S512x64_S2000x64_1_0_0_1_n_n.lhsIdx_val_of_single rfl _ _).trans hk)
  have er : dot_S2000x512_S512x64_S2000x64_1_0_0_1_n_n.rhsIdx (ix2 r j) ((contrEquiv1 dot_S2000x512_S512x64_S2000x64_1_0_0_1_n_n 512 rfl rfl).symm k) = ix2 k j := funext fun a => Fin.ext (by
    match a with
    | ⟨0, _⟩ => exact (dot_S2000x512_S512x64_S2000x64_1_0_0_1_n_n.rhsIdx_val_of_single rfl _ _).trans hk
    | ⟨1, _⟩ => exact mm0_rhs1 _ _)
  rw [el, er]

/-- The bias row spread over the 2000 rows reads, at (r, j), the row at (0, j). -/
theorem bias0_apply (b : Vec Ideal S1x64 .f32) (r : Fin 2000) (j : Fin 64) :
    broadcastTo S2000x64 (shapeCast S1x64 b shapeCasts_S1x64_S1x64) broadcasts_S1x64_S2000x64 (ix2 r j) = b (ix2 (0 : Fin 1) j) := by
  rw [shapeCast_self]
  exact broadcastTo_1b_ab_apply b broadcasts_S1x64_S2000x64 r j

/-- The body's stored value is the dense layer of its blocks. -/
theorem pay0_eq (x : Vec Ideal S2000x512 .f32) (w : Vec Ideal S512x64 .f32) (b : Vec Ideal S1x64 .f32) :
    k0_pay1 (F := Ideal) x w b = lin x w b := by
  funext i
  obtain ⟨r, j, rfl⟩ : ∃ (r : Fin 2000) (j : Fin 64), i = ix2 r j := ⟨i 0, i 1, eq_ix2 i⟩
  rw [lin_apply]
  unfold k0_pay1 linAt
  refine congrArg₂ max (congrArg₂ (· + ·) ?_ (bias0_apply b r j)) rfl
  refine (mm0_apply _ _ r j).trans (Finset.sum_congr rfl fun k _ => ?_)
  rw [shapeCast_self]
  rfl

end Cert.KernelIdeal.Body

end
-- ==== Proof.Reg0.lean ====
/-
  The dense layer's region: its output array after the 50 grid points.

  Point t reads rows 2000·t … 2000·t+1999 of the features, the whole transposed weight and the bias row, and writes back
  rows 2000·t … 2000·t+1999 of the output. What it writes is the dense layer of those rows, and the dense layer of a block
  of rows is that block of the dense layer of the whole array, since row r of the result depends on row r of the
  features only. The 50 blocks tile the 100000 rows, so the output array ends as the dense layer of the arrays the
  region found.
-/
import proofs.«141536_j6889127543055_1_alg».proof.Proof.Gen.KernelIdeal.Frame
import proofs.«141536_j6889127543055_1_alg».proof.Proof.Pay0
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL Idealize.SL.Sem Cert.Stages
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the features' and the output's block is row block t, the weight's and the bias's is
    block (0, 0). -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt0 (t : Fin cfg0.N) : t.val < 50 := lt_of_lt_of_eq t.isLt N_0

/-- Row r of block t is row 2000·t + r of the array. -/
def rowOf0 (t : Fin cfg0.N) (r : Fin 2000) : Fin 100000 :=
  ⟨2000 * t.val + r.val, by have := point_lt0 t; have := r.isLt; omega⟩

theorem emb0_x (t : Fin cfg0.N) (r : Fin 2000) (k : Fin 512) :
    ((cfg0.win 0).blk t).view.emb (ix2 r k) = (ix2 (rowOf0 t r) k : S100000x512.Idx) := by
  obtain ⟨e0, e1, -⟩ := maps0 t
  funext a; apply Fin.ext
  match a with
  | ⟨0, _⟩ => show win0_0.index t (0 : Fin 2) * 2000 + 1 * r.val = 2000 * t.val + r.val; omega
  | ⟨1, _⟩ => show win0_0.index t (1 : Fin 2) * 512 + 1 * k.val = k.val; omega

theorem emb0_w (t : Fin cfg0.N) (k : Fin 512) (j : Fin 64) :
    ((cfg0.win 1).blk t).view.emb (ix2 k j) = (ix2 k j : S512x64.Idx) := by
  obtain ⟨-, -, e2, e3, -⟩ := maps0 t
  funext a; apply Fin.ext
  match a with
  | ⟨0, _⟩ => show win0_1.index t (0 : Fin 2) * 512 + 1 * k.val = k.val; omega
  | ⟨1, _⟩ => show win0_1.index t (1 : Fin 2) * 64 + 1 * j.val = j.val; omega

theorem emb0_b (t : Fin cfg0.N) (j : Fin 64) :
    ((cfg0.win 2).blk t).view.emb (ix2 (0 : Fin 1) j) = (ix2 (0 : Fin 1) j : S1x64.Idx) := by
  obtain ⟨-, -, -, -, e4, e5, -⟩ := maps0 t
  funext a; apply Fin.ext
  match a with
  | ⟨0, _⟩ => show win0_2.index t (0 : Fin 2) * 1 + 1 * 0 = 0; omega
  | ⟨1, _⟩ => show win0_2.index t (1 : Fin 2) * 64 + 1 * j.val = j.val; omega

theorem emb0_o (t : Fin cfg0.N) (r : Fin 2000) (j : Fin 64) :
    ((cfg0.win 3).blk t).view.emb (ix2 r j) = (ix2 (rowOf0 t r) j : S100000x64.Idx) := by
  obtain ⟨-, -, -, -, -, -, e6, e7⟩ := maps0 t
  funext a; apply Fin.ext
  match a with
  | ⟨0, _⟩ => show win0_3.index t (0 : Fin 2) * 2000 + 1 * r.val = 2000 * t.val + r.val; omega
  | ⟨1, _⟩ => show win0_3.index t (1 : Fin 2) * 64 + 1 * j.val = j.val; omega

/-- What point t writes back is block t of the dense layer of the arrays as the region finds them. -/
theorem flushed0 (c : Dev nD) (t : Fin cfg0.N) :
    (dat0 V c).flushed 3 t = ((cfg0.win 3).blk t).view.read (Elt Ideal) (lin (V c main_arg0) (V c main_v32) (V c main_v33)) := by
  show (cfg0.win 3).cut (grid0.coords t) ((dat0 V c).after 3 t) = _
  rw [after0_3]
  unfold out0_3
  rw [View.canon_unit_zero zero2]
  simp only [View.ld_unit_zero (S := S2000x512) zero2, View.ld_unit_zero (S := S512x64) zero2, View.ld_unit_zero (S := S1x64) zero2]
  rw [Body.pay0_eq]
  funext y
  obtain ⟨r, j, rfl⟩ : ∃ (r : Fin 2000) (j : Fin 64), y = ix2 r j := ⟨y 0, y 1, eq_ix2 y⟩
  have hx : ∀ k : Fin 512, iblk0 V c 0 t (ix2 r k) = V c main_arg0 (ix2 (rowOf0 t r) k) :=
    fun k => congrArg (V c main_arg0) (emb0_x t r k)
  have hw : ∀ k : Fin 512, iblk0 V c 1 t (ix2 k j) = V c main_v32 (ix2 k j) :=
    fun k => congrArg (V c main_v32) (emb0_w t k j)
  have hb : iblk0 V c 2 t (ix2 (0 : Fin 1) j) = V c main_v33 (ix2 (0 : Fin 1) j) :=
    congrArg (V c main_v33) (emb0_b t j)
  have ho : ((cfg0.win 3).blk t).view.read (Elt Ideal) (lin (V c main_arg0) (V c main_v32) (V c main_v33)) (ix2 r j)
      = lin (V c main_arg0) (V c main_v32) (V c main_v33) (ix2 (rowOf0 t r) j) :=
    congrArg (lin (V c main_arg0) (V c main_v32) (V c main_v33)) (emb0_o t r j)
  rw [ho, lin_apply]
  show linAt (iblk0 V c 0 t) (iblk0 V c 1 t) (iblk0 V c 2 t) r j = _
  unfold linAt
  rw [hb]
  exact congrArg (fun s => max (s + V c main_v33 (ix2 (0 : Fin 1) j)) (Ideal.ofBits .f32 0x00000000#32))
    (Finset.sum_congr rfl fun k _ => by rw [hx k, hw k])

/-- An index of the output array is in point t's block iff each coordinate is in the block's range. -/
theorem mem_blk0 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v34).slice (win0_3.rect t)).set ↔ _
  rw [View.set_slice_whole, Rect.mem_set_unit]
  exact Iff.rfl

/-- Row r is in the block of point r / 2000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 50 := N_0
  let t : Fin cfg0.N := ⟨(i 0).val / 2000, by show (i 0).val / 2000 < grid0.N; omega⟩
  obtain ⟨-, -, -, -, -, -, e6, e7⟩ := maps0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- The output array after the region is the dense layer of the arrays the region found. -/
theorem final0 (c : Dev nD) :
    (dat0 V c).arrAt 3 cfg0.N = lin (V c main_arg0) (V c main_v32) (V c main_v33) :=
  (dat0 V c).arrAt_eq_of_cover 3 _ (fun t _ => flushed0 V c t) cover0

end Cert.KernelIdeal.Arrays

end
-- ==== Proof.Pay1.lean ====
/-
  The update region's body: what one grid point computes from its blocks.

  The body loads the scale row s [1, 64] and 4000-row blocks raw and agg, spreads s over the rows, and stores
  s·raw + agg. At (r, j) that is s[0,j]·raw[r,j] + agg[r,j]: one update of the 4000 rows. The two update regions have
  the same body.
-/
import proofs.«141536_j6889127543055_1_alg».proof.Proof.Gen.KernelIdeal.Skeleton
import proofs.«141536_j6889127543055_1_alg».proof.Proof.Stages
import Idealize.ShloMosaic.Lib.Pipeline.Value
import Idealize.ShloMosaic.Lib.ValueLayout
import Idealize.ShloMosaic.Lib.ValueIdx

noncomputable section

namespace Cert.KernelIdeal.Body

open Cert.KernelIdeal Cert.KernelIdeal.Gen Idealize.ShloMosaic Idealize.ShloMosaic.ValueIdx Cert.Stages

/-- The scale row spread over the 4000 rows reads, at (r, j), the row at (0, j). -/
theorem scale_apply (s : Vec Ideal S1x64 .f32) (r : Fin 4000) (j : Fin 64) :
    broadcastTo S4000x64 (shapeCast S1x64 s shapeCasts_S1x64_S1x64) broadcasts_S1x64_S4000x64 (ix2 r j) = s (ix2 (0 : Fin 1) j) := by
  rw [shapeCast_self]
  exact broadcastTo_1b_ab_apply s broadcasts_S1x64_S4000x64 r j

/-- The first update region's stored value is one update of its blocks. -/
theorem pay1_eq (s : Vec Ideal S1x64 .f32) (raw agg : Vec Ideal S4000x64 .f32) :
    k1_pay1 (F := Ideal) s raw agg = upd agg raw s := by
  funext i
  obtain ⟨r, j, rfl⟩ : ∃ (r : Fin 4000) (j : Fin 64), i = ix2 r j := ⟨i 0, i 1, eq_ix2 i⟩
  rw [upd_apply]
  unfold k1_pay1 updAt
  rw [shapeCast_self raw, shapeCast_self agg]
  exact congrArg₂ (· + ·) (congrArg₂ (· * ·) (scale_apply s r j) rfl) rfl

/-- The second update region's stored value is one update of its blocks. -/
theorem pay2_eq (s : Vec Ideal S1x64 .f32) (raw agg : Vec Ideal S4000x64 .f32) :
    k2_pay1 (F := Ideal) s raw agg = upd agg raw s := by
  funext i
  obtain ⟨r, j, rfl⟩ : ∃ (r : Fin 4000) (j : Fin 64), i = ix2 r j := ⟨i 0, i 1, eq_ix2 i⟩
  rw [upd_apply]
  unfold k2_pay1 updAt
  rw [shapeCast_self raw, shapeCast_self agg]
  exact congrArg₂ (· + ·) (congrArg₂ (· * ·) (scale_apply s r j) rfl) rfl

end Cert.KernelIdeal.Body

end
-- ==== Proof.Reg1.lean ====
/-
  The first update region: its output array after the 25 grid points.

  Point t reads rows 4000·t … 4000·t+3999 of the aggregated messages and of the first layer's embeddings, and the scale
  row, and writes back rows 4000·t … 4000·t+3999 of the output. What it writes is one update of those rows, and an update
  of a block of rows is that block of the update of the whole arrays, since row r of the result depends on row r of the
  two row-indexed operands only. The 25 blocks tile the 100000 rows, so the output array ends as the update of the
  arrays the region found.
-/
import proofs.«141536_j6889127543055_1_alg».proof.Proof.Gen.KernelIdeal.Frame
import proofs.«141536_j6889127543055_1_alg».proof.Proof.Pay1
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL Idealize.SL.Sem Cert.Stages
open Idealize.ShloMosaic.Pipeline (Dat Cfg Window)

variable (V : (c : Dev nD) → (b : Ref sig .tc) → Buf (Elt Ideal) ((c : Thread nD τ).loc b))

theorem zero2_1 : (![0, 0] : Fin 2 → Nat) = fun _ => 0 := funext fun a => by fin_cases a <;> rfl

/-- The index maps over the grid: the two row-indexed operands' and the output's block is row block t, the scale's is
    block (0, 0). -/
theorem maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt1 (t : Fin cfg1.N) : t.val < 25 := lt_of_lt_of_eq t.isLt N_1

/-- Row r of block t is row 4000·t + r of the array. -/
def rowOf1 (t : Fin cfg1.N) (r : Fin 4000) : Fin 100000 :=
  ⟨4000 * t.val + r.val, by have := point_lt1 t; have := r.isLt; omega⟩

theorem emb1_agg (t : Fin cfg1.N) (r : Fin 4000) (j : Fin 64) :
    ((cfg1.win 0).blk t).view.emb (ix2 r j) = (ix2 (rowOf1 t r) j : S100000x64.Idx) := by
  obtain ⟨e0, e1, -⟩ := maps1 t
  funext a; apply Fin.ext
  match a with
  | ⟨0, _⟩ => show win1_0.index t (0 : Fin 2) * 4000 + 1 * r.val = 4000 * t.val + r.val; omega
  | ⟨1, _⟩ => show win1_0.index t (1 : Fin 2) * 64 + 1 * j.val = j.val; omega

theorem emb1_raw (t : Fin cfg1.N) (r : Fin 4000) (j : Fin 64) :
    ((cfg1.win 1).blk t).view.emb (ix2 r j) = (ix2 (rowOf1 t r) j : S100000x64.Idx) := by
  obtain ⟨-, -, e2, e3, -⟩ := maps1 t
  funext a; apply Fin.ext
  match a with
  | ⟨0, _⟩ => show win1_1.index t (0 : Fin 2) * 4000 + 1 * r.val = 4000 * t.val + r.val; omega
  | ⟨1, _⟩ => show win1_1.index t (1 : Fin 2) * 64 + 1 * j.val = j.val; omega

theorem emb1_s (t : Fin cfg1.N) (j : Fin 64) :
    ((cfg1.win 2).blk t).view.emb (ix2 (0 : Fin 1) j) = (ix2 (0 : Fin 1) j : S1x64.Idx) := by
  obtain ⟨-, -, -, -, e4, e5, -⟩ := maps1 t
  funext a; apply Fin.ext
  match a with
  | ⟨0, _⟩ => show win1_2.index t (0 : Fin 2) * 1 + 1 * 0 = 0; omega
  | ⟨1, _⟩ => show win1_2.index t (1 : Fin 2) * 64 + 1 * j.val = j.val; omega

theorem emb1_o (t : Fin cfg1.N) (r : Fin 4000) (j : Fin 64) :
    ((cfg1.win 3).blk t).view.emb (ix2 r j) = (ix2 (rowOf1 t r) j : S100000x64.Idx) := by
  obtain ⟨-, -, -, -, -, -, e6, e7⟩ := maps1 t
  funext a; apply Fin.ext
  match a with
  | ⟨0, _⟩ => show win1_3.index t (0 : Fin 2) * 4000 + 1 * r.val = 4000 * t.val + r.val; omega
  | ⟨1, _⟩ => show win1_3.index t (1 : Fin 2) * 64 + 1 * j.val = j.val; omega

/-- What point t writes back is block t of the update of the arrays as the region finds them. -/
theorem flushed1 (c : Dev nD) (t : Fin cfg1.N) :
    (dat1 V c).flushed 3 t = ((cfg1.win 3).blk t).view.read (Elt Ideal) (upd (V c main_v55) (V c main_v34) (V c main_v42)) := by
  show (cfg1.win 3).cut (grid1.coords t) ((dat1 V c).after 3 t) = _
  rw [after1_3]
  unfold out1_3
  rw [View.canon_unit_zero zero2_1]
  simp only [View.ld_unit_zero (S := S4000x64) zero2_1, View.ld_unit_zero (S := S1x64) zero2_1]
  rw [Body.pay1_eq]
  funext y
  obtain ⟨r, j, rfl⟩ : ∃ (r : Fin 4000) (j : Fin 64), y = ix2 r j := ⟨y 0, y 1, eq_ix2 y⟩
  have ha : iblk1 V c 0 t (ix2 r j) = V c main_v55 (ix2 (rowOf1 t r) j) := congrArg (V c main_v55) (emb1_agg t r j)
  have hr : iblk1 V c 1 t (ix2 r j) = V c main_v34 (ix2 (rowOf1 t r) j) := congrArg (V c main_v34) (emb1_raw t r j)
  have hs : iblk1 V c 2 t (ix2 (0 : Fin 1) j) = V c main_v42 (ix2 (0 : Fin 1) j) := congrArg (V c main_v42) (emb1_s t j)
  have ho : ((cfg1.win 3).blk t).view.read (Elt Ideal) (upd (V c main_v55) (V c main_v34) (V c main_v42)) (ix2 r j)
      = upd (V c main_v55) (V c main_v34) (V c main_v42) (ix2 (rowOf1 t r) j) :=
    congrArg (upd (V c main_v55) (V c main_v34) (V c main_v42)) (emb1_o t r j)
  rw [ho, upd_apply]
  show updAt (iblk1 V c 0 t) (iblk1 V c 1 t) (iblk1 V c 2 t) r j = _
  unfold updAt
  rw [ha, hr, hs]

/-- An index of the output array is in point t's block iff each coordinate is in the block's range. -/
theorem mem_blk1 (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v56).slice (win1_3.rect t)).set ↔ _
  rw [View.set_slice_whole, Rect.mem_set_unit]
  exact Iff.rfl

/-- Row r is in the block of point r / 4000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 25 := N_1
  let t : Fin cfg1.N := ⟨(i 0).val / 4000, by show (i 0).val / 4000 < grid1.N; omega⟩
  obtain ⟨-, -, -, -, -, -, e6, e7⟩ := maps1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- The output array after the region is the update of the arrays the region found. -/
theorem final1 (c : Dev nD) :
    (dat1 V c).arrAt 3 cfg1.N = upd (V c main_v55) (V c main_v34) (V c main_v42) :=
  (dat1 V c).arrAt_eq_of_cover 3 _ (fun t _ => flushed1 V c t) cover1

end Cert.KernelIdeal.Arrays

end
-- ==== Proof.Reg2.lean ====
/-
  The second update region: its output array after the 25 grid points.

  Point t reads rows 4000·t … 4000·t+3999 of the aggregated messages and of the first layer's embeddings, and the scale
  row, and writes back rows 4000·t … 4000·t+3999 of the output. What it writes is one update of those rows, and an update
  of a block of rows is that block of the update of the whole arrays, since row r of the result depends on row r of the
  two row-indexed operands only. The 25 blocks tile the 100000 rows, so the output array ends as the update of the
  arrays the region found.
-/
import proofs.«141536_j6889127543055_1_alg».proof.Proof.Gen.KernelIdeal.Frame
import proofs.«141536_j6889127543055_1_alg».proof.Proof.Pay1
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL Idealize.SL.Sem Cert.Stages
open Idealize.ShloMosaic.Pipeline (Dat Cfg Window)

variable (V : (c : Dev nD) → (b : Ref sig .tc) → Buf (Elt Ideal) ((c : Thread nD τ).loc b))

theorem zero2_2 : (![0, 0] : Fin 2 → Nat) = fun _ => 0 := funext fun a => by fin_cases a <;> rfl

/-- The index maps over the grid: the two row-indexed operands' and the output's block is row block t, the scale's is
    block (0, 0). -/
theorem maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt2 (t : Fin cfg2.N) : t.val < 25 := lt_of_lt_of_eq t.isLt N_2

/-- Row r of block t is row 4000·t + r of the array. -/
def rowOf2 (t : Fin cfg2.N) (r : Fin 4000) : Fin 100000 :=
  ⟨4000 * t.val + r.val, by have := point_lt2 t; have := r.isLt; omega⟩

theorem emb2_agg (t : Fin cfg2.N) (r : Fin 4000) (j : Fin 64) :
    ((cfg2.win 0).blk t).view.emb (ix2 r j) = (ix2 (rowOf2 t r) j : S100000x64.Idx) := by
  obtain ⟨e0, e1, -⟩ := maps2 t
  funext a; apply Fin.ext
  match a with
  | ⟨0, _⟩ => show win2_0.index t (0 : Fin 2) * 4000 + 1 * r.val = 4000 * t.val + r.val; omega
  | ⟨1, _⟩ => show win2_0.index t (1 : Fin 2) * 64 + 1 * j.val = j.val; omega

theorem emb2_raw (t : Fin cfg2.N) (r : Fin 4000) (j : Fin 64) :
    ((cfg2.win 1).blk t).view.emb (ix2 r j) = (ix2 (rowOf2 t r) j : S100000x64.Idx) := by
  obtain ⟨-, -, e2, e3, -⟩ := maps2 t
  funext a; apply Fin.ext
  match a with
  | ⟨0, _⟩ => show win2_1.index t (0 : Fin 2) * 4000 + 1 * r.val = 4000 * t.val + r.val; omega
  | ⟨1, _⟩ => show win2_1.index t (1 : Fin 2) * 64 + 1 * j.val = j.val; omega

theorem emb2_s (t : Fin cfg2.N) (j : Fin 64) :
    ((cfg2.win 2).blk t).view.emb (ix2 (0 : Fin 1) j) = (ix2 (0 : Fin 1) j : S1x64.Idx) := by
  obtain ⟨-, -, -, -, e4, e5, -⟩ := maps2 t
  funext a; apply Fin.ext
  match a with
  | ⟨0, _⟩ => show win2_2.index t (0 : Fin 2) * 1 + 1 * 0 = 0; omega
  | ⟨1, _⟩ => show win2_2.index t (1 : Fin 2) * 64 + 1 * j.val = j.val; omega

theorem emb2_o (t : Fin cfg2.N) (r : Fin 4000) (j : Fin 64) :
    ((cfg2.win 3).blk t).view.emb (ix2 r j) = (ix2 (rowOf2 t r) j : S100000x64.Idx) := by
  obtain ⟨-, -, -, -, -, -, e6, e7⟩ := maps2 t
  funext a; apply Fin.ext
  match a with
  | ⟨0, _⟩ => show win2_3.index t (0 : Fin 2) * 4000 + 1 * r.val = 4000 * t.val + r.val; omega
  | ⟨1, _⟩ => show win2_3.index t (1 : Fin 2) * 64 + 1 * j.val = j.val; omega

/-- What point t writes back is block t of the update of the arrays as the region finds them. -/
theorem flushed2 (c : Dev nD) (t : Fin cfg2.N) :
    (dat2 V c).flushed 3 t = ((cfg2.win 3).blk t).view.read (Elt Ideal) (upd (V c main_v69) (V c main_v34) (V c main_v42)) := by
  show (cfg2.win 3).cut (grid2.coords t) ((dat2 V c).after 3 t) = _
  rw [after2_3]
  unfold out2_3
  rw [View.canon_unit_zero zero2_2]
  simp only [View.ld_unit_zero (S := S4000x64) zero2_2, View.ld_unit_zero (S := S1x64) zero2_2]
  rw [Body.pay2_eq]
  funext y
  obtain ⟨r, j, rfl⟩ : ∃ (r : Fin 4000) (j : Fin 64), y = ix2 r j := ⟨y 0, y 1, eq_ix2 y⟩
  have ha : iblk2 V c 0 t (ix2 r j) = V c main_v69 (ix2 (rowOf2 t r) j) := congrArg (V c main_v69) (emb2_agg t r j)
  have hr : iblk2 V c 1 t (ix2 r j) = V c main_v34 (ix2 (rowOf2 t r) j) := congrArg (V c main_v34) (emb2_raw t r j)
  have hs : iblk2 V c 2 t (ix2 (0 : Fin 1) j) = V c main_v42 (ix2 (0 : Fin 1) j) := congrArg (V c main_v42) (emb2_s t j)
  have ho : ((cfg2.win 3).blk t).view.read (Elt Ideal) (upd (V c main_v69) (V c main_v34) (V c main_v42)) (ix2 r j)
      = upd (V c main_v69) (V c main_v34) (V c main_v42) (ix2 (rowOf2 t r) j) :=
    congrArg (upd (V c main_v69) (V c main_v34) (V c main_v42)) (emb2_o t r j)
  rw [ho, upd_apply]
  show updAt (iblk2 V c 0 t) (iblk2 V c 1 t) (iblk2 V c 2 t) r j = _
  unfold updAt
  rw [ha, hr, hs]

/-- An index of the output array is in point t's block iff each coordinate is in the block's range. -/
theorem mem_blk2 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v70).slice (win2_3.rect t)).set ↔ _
  rw [View.set_slice_whole, Rect.mem_set_unit]
  exact Iff.rfl

/-- Row r is in the block of point r / 4000. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 25 := N_2
  let t : Fin cfg2.N := ⟨(i 0).val / 4000, by show (i 0).val / 4000 < grid2.N; omega⟩
  obtain ⟨-, -, -, -, -, -, e6, e7⟩ := maps2 t
  have ht : t.val = (i 0).val / 4000 := rfl
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 64 ≤ (i 1).val ∧ (i 1).val < win2_3.index t (1 : Fin 2) * 64 + 64; omega

/-- The output array after the region is the update of the arrays the region found. -/
theorem final2 (c : Dev nD) :
    (dat2 V c).arrAt 3 cfg2.N = upd (V c main_v69) (V c main_v34) (V c main_v42) :=
  (dat2 V c).arrAt_eq_of_cover 3 _ (fun t _ => flushed2 V c t) cover2

end Cert.KernelIdeal.Arrays

end
-- ==== Proof.LibColumn.lean ====
/-
  A matrix's row sums kept as a column, read at an index.

  `jnp.sum(x, axis=1, keepdims=True)` of an `[a, b]` matrix lowers to a lane reduction into `[a]`, a reshape to the
  column `[a, 1]`, and, where the column meets an `[a, c]` matrix, a broadcast along the second axis. Read at an
  index each step only moves coordinates:
    the reduction at `r`       is  Σ_k x[r, k],
    the column at `(r, u)`     is  the vector at `r`      (`u` ranges over the one coordinate of the unit axis),
    the broadcast at `(r, j)`  is  the column at `(r, 0)`.
  The statements are over arbitrary extents and any element type; the sum is over the extended reals.
-/
import Idealize.ShloMosaic.PureOps.Ideal
import Idealize.ShloMosaic.PureOps.Ideal.Laws
import Idealize.ShloMosaic.Lib.Pipeline.Value
import Idealize.ShloMosaic.Lib.ValueIdx

noncomputable section

namespace Idealize.ShloMosaic.ColumnIdx

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its second axis reads, at `r`, the sum of row `r`: the zero accumulator adds
    nothing, and the index with `k` put back on the reduced axis is `(r, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

end Idealize.ShloMosaic.ColumnIdx

end
-- ==== Proof.LibReduceIdx.lean ====
/-
  A matrix reduced along one axis, read at an index.

  For an [a, b] matrix x on the extended reals:
    the maximum along the second axis, at r, is the fold of max from the accumulator's value over k of x[r, k];
    the maximum along the first axis, at c, is the fold of max from the accumulator's value over k of x[k, c];
    the sum along the first axis, at c, is the sum over k of x[k, c].
  In each case the reduced index with the coordinate k put back on the reduced axis is (r, k), respectively (k, c),
  and max and + are commutative and associative, so the order of the fold does not matter.
  The statements are over arbitrary extents; the sum along the second axis is in the sibling file on columns.
-/
import Idealize.ShloMosaic.PureOps.Ideal
import Idealize.ShloMosaic.PureOps.Ideal.Laws
import Idealize.ShloMosaic.Lib.ValueIdx

noncomputable section

namespace Idealize.ShloMosaic.ReduceIdx

open Idealize.ShloMosaic Idealize.ShloMosaic.ValueIdx

/-- The maximum of an [a, b] matrix along its second axis reads, at r, the fold of max over row r from the accumulator's value. -/
theorem rowMax_apply {a b : ℕ} (src : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (funext fun c => Fin.ext (by
        match c with
        | ⟨0, _⟩ => rfl
        | ⟨1, _⟩ => rfl))))

/-- The maximum of an [a, b] matrix along its first axis reads, at c, the fold of max over column c from the accumulator's value. -/
theorem colMax_apply {a b : ℕ} (src : FVec Ideal ⟨2, ![a, b]⟩ .f32) (acc : BitVec 32) (h : Shape.Reduces ⟨2, ![a, b]⟩ [0] ⟨1, ![b]⟩)
    (hφ : FKind.Formats .f32) (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun k => src (ix2 k c)) :=
  (Ideal.multiReduction_maximumf_single src acc h hφ hacc (ix1 c)).trans
    (congrArg (fun f : Fin a → EReal => (Finset.univ : Finset (Fin a)).fold max (Ideal.ofBits .f32 acc) f)
      (funext fun k => congrArg src (funext fun ax => Fin.ext (by
        match ax with
        | ⟨0, _⟩ => rfl
        | ⟨1, _⟩ => rfl))))

/-- The sum of an [a, b] matrix along its first axis reads, at c, the sum of column c. -/
theorem colSum_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ src 0x00000000#32 h hφ hacc (ix1 c) = ∑ k : Fin a, src (ix2 k c) :=
  (Ideal.multiReduction_add_single src _ h hφ hacc (ix1 c)).trans
    (Finset.sum_congr rfl fun k _ => congrArg src (funext fun ax => Fin.ext (by
      match ax with
      | ⟨0, _⟩ => rfl
      | ⟨1, _⟩ => rfl)))

end Idealize.ShloMosaic.ReduceIdx

end
-- ==== Proof.Pay3.lean ====
/-
  The output region's body: what one grid point computes from its blocks.

  The body loads a 5000-row block h of the embeddings, the transposed weight W [64, 40] and the bias row b [1, 40]. It
  forms the logits a = h·W + b (the product into a zero accumulator, the change of float format the identity), the row
  maximum of a folded from −∞ and kept as a column, the shifted logits z = a − max, the row sum of exp z kept as a column,
  and stores z − log Σ exp z. At (r, j) that is the log-softmax of row r of the logits, as the output layer states it.
-/
import proofs.«141536_j6889127543055_1_alg».proof.Proof.Gen.KernelIdeal.Skeleton
import proofs.«141536_j6889127543055_1_alg».proof.Proof.Stages
import proofs.«141536_j6889127543055_1_alg».proof.Proof.LibColumn
import proofs.«141536_j6889127543055_1_alg».proof.Proof.LibReduceIdx
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Stages

theorem mm3_lhs0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl

theorem mm3_rhs1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The [5000, 64] × [64, 40] product into the zero accumulator, at (r, j): Σ_k A[r,k]·B[k,j]. -/
theorem mm3_apply (A : FVec Ideal S5000x64 .bf16) (B : FVec Ideal S64x40 .bf16) (r : Fin 5000) (j : Fin 40) :
    FloatOps.matmul dot_S5000x64_S64x40_S5000x40_1_0_0_1_n_n none A B (constant (F := Ideal) S5000x40 .f32 0x00000000#32) (ix2 r j)
      = ∑ k : Fin 64, A (ix2 r k) * B (ix2 k j) := by
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 r j) ((contrEquiv1 dot_S5000x64_S64x40_S5000x40_1_0_0_1_n_n 64 rfl rfl).symm k) = ix2 r k := funext fun a => Fin.ext (by
    match a with
    | ⟨0, _⟩ => exact mm3_lhs0 _ _
    | ⟨1, _⟩ => exact (dot_S5000x64_S64x40_S5000x40_1_0_0_1_n_n.lhsIdx_val_of_single rfl _ _).trans hk)
  have er : dot_S5000x64_S64x40_S5000x40_1_0_0_1_n_n.rhsIdx (ix2 r j) ((contrEquiv1 dot_S5000x64_S64x40_S5000x40_1_0_0_1_n_n 64 rfl rfl).symm k) = ix2 k j := funext fun a => Fin.ext (by
    match a with
    | ⟨0, _⟩ => exact (dot_S5000x64_S64x40_S5000x40_1_0_0_1_n_n.rhsIdx_val_of_single rfl _ _).trans hk
    | ⟨1, _⟩ => exact mm3_rhs1 _ _)
  rw [el, er]

/-- The logits of a block: h·W + b. -/
def acc3 (x : Vec Ideal S5000x64 .f32) (w : Vec Ideal S64x40 .f32) (b : Vec Ideal S1x40 .f32) : FVec Ideal S5000x40 .f32 :=
  addf (matmul dot_S5000x64_S64x40_S5000x40_1_0_0_1_n_n none (truncf .bf16 (shapeCast S5000x64 x shapeCasts_S5000x64_S5000x64) bitsLt_bf16_f32)
      (truncf .bf16 (shapeCast S64x40 w shapeCasts_S64x40_S64x40) bitsLt_bf16_f32) (constant S5000x40 .f32 0x00000000#32))
    (broadcastTo S5000x40 (shapeCast S1x40 b shapeCasts_S1x40_S1x40) broadcasts_S1x40_S5000x40)

/-- A matrix minus its row maxima, the maxima kept as a column and spread back over the rows. -/
def shift3 (A : FVec Ideal S5000x40 .f32) : FVec Ideal S5000x40 .f32 :=
  subf A (broadcastTo S5000x40 (shapeCast S5000x1 (multiReduction .maximumf [1] S5000 A 0xFF800000#32 reduces_S5000x40_S5000 (.inl rfl) rfl)
    shapeCasts_S5000_S5000x1) broadcasts_S5000x1_S5000x40)

/-- A matrix minus the logarithm of its rows' sums of exponentials, the sums kept as a column. -/
def lsm3 (Z : FVec Ideal S5000x40 .f32) : FVec Ideal S5000x40 .f32 :=
  subf Z (broadcastTo S5000x40 (log (shapeCast S5000x1 (multiReduction .add [1] S5000 (exp Z) 0x00000000#32 reduces_S5000x40_S5000 (.inl rfl) rfl)
    shapeCasts_S5000_S5000x1)) broadcasts_S5000x1_S5000x40)

/-- The body's stored value is these three steps in a row. -/
theorem pay3_steps (x : Vec Ideal S5000x64 .f32) (w : Vec Ideal S64x40 .f32) (b : Vec Ideal S1x40 .f32) :
    k3_pay1 (F := Ideal) x w b = lsm3 (shift3 (acc3 x w b)) := rfl

theorem acc3_apply (x : Vec Ideal S5000x64 .f32) (w : Vec Ideal S64x40 .f32) (b : Vec Ideal S1x40 .f32) (r : Fin 5000) (j : Fin 40) :
    acc3 x w b (ix2 r j) = logitAt x w b r j := by
  unfold acc3 logitAt
  refine congrArg₂ (· + ·) ?_ ?_
  · refine (mm3_apply _ _ r j).trans (Finset.sum_congr rfl fun k _ => ?_)
    rw [shapeCast_self, shapeCast_self]
    rfl
  · rw [shapeCast_self]
    exact broadcastTo_1b_ab_apply b broadcasts_S1x40_S5000x40 r j

/-- A row statistic kept as a column and spread back reads, at (r, j), the statistic at r. -/
theorem col_apply (v : FVec Ideal S5000 .f32) (r : Fin 5000) (j : Fin 40) :
    broadcastTo S5000x40 (shapeCast S5000x1 v shapeCasts_S5000_S5000x1) broadcasts_S5000x1_S5000x40 (ix2 r j) = v (ix1 r) :=
  (ColumnIdx.broadcastTo_a1_ab_apply _ broadcasts_S5000x1_S5000x40 r j).trans
    (ColumnIdx.shapeCast_a_a1_apply v shapeCasts_S5000_S5000x1 r 0)

/-- The same with the logarithm taken on the column. -/
theorem logcol_apply (v : FVec Ideal S5000 .f32) (r : Fin 5000) (j : Fin 40) :
    broadcastTo S5000x40 (log (shapeCast S5000x1 v shapeCasts_S5000_S5000x1)) broadcasts_S5000x1_S5000x40 (ix2 r j) = Ideal.log (v (ix1 r)) :=
  (ColumnIdx.broadcastTo_a1_ab_apply _ broadcasts_S5000x1_S5000x40 r j).trans
    (congrArg Ideal.log (ColumnIdx.shapeCast_a_a1_apply v shapeCasts_S5000_S5000x1 r 0))

theorem shift3_apply (A : FVec Ideal S5000x40 .f32) (r : Fin 5000) (j : Fin 40) :
    shift3 A (ix2 r j) = A (ix2 r j) - (Finset.univ : Finset (Fin 40)).fold max (Ideal.ofBits .f32 0xFF800000#32) (fun k => A (ix2 r k)) := by
  unfold shift3
  refine congrArg (A (ix2 r j) - ·) ?_
  exact (col_apply _ r j).trans (ReduceIdx.rowMax_apply A 0xFF800000#32 reduces_S5000x40_S5000 (.inl rfl) rfl r)

theorem lsm3_apply (Z : FVec Ideal S5000x40 .f32) (r : Fin 5000) (j : Fin 40) :
    lsm3 Z (ix2 r j) = Z (ix2 r j) - Ideal.log (∑ k : Fin 40, Ideal.exp (Z (ix2 r k))) := by
  unfold lsm3
  refine congrArg (Z (ix2 r j) - ·) ?_
  refine (logcol_apply _ r j).trans (congrArg Ideal.log ?_)
  exact ColumnIdx.rowSum_apply (exp Z) reduces_S5000x40_S5000 (.inl rfl) rfl r

/-- The body's stored value is the output layer of its blocks. -/
theorem pay3_eq (x : Vec Ideal S5000x64 .f32) (w : Vec Ideal S64x40 .f32) (b : Vec Ideal S1x40 .f32) :
    k3_pay1 (F := Ideal) x w b = fin x w b := by
  funext i
  obtain ⟨r, j, rfl⟩ : ∃ (r : Fin 5000) (j : Fin 40), i = ix2 r j := ⟨i 0, i 1, eq_ix2 i⟩
  rw [fin_apply, pay3_steps, lsm3_apply]
  simp only [shift3_apply, acc3_apply]
  rfl

end Cert.KernelIdeal.Body

end
-- ==== Proof.Reg3.lean ====
/-
  The output region: its output array after the 20 grid points.

  Point t reads rows 5000·t … 5000·t+4999 of the final embeddings, the whole transposed weight and the bias row, and
  writes back rows 5000·t … 5000·t+4999 of the log-probabilities. What it writes is the output layer of those rows, and
  the output layer of a block of rows is that block of the output layer of the whole array: the logits of row r, their
  maximum and the sum of their exponentials are all taken within row r. The 20 blocks tile the 100000 rows, so the
  output array ends as the output layer of the arrays the region found.
-/
import proofs.«141536_j6889127543055_1_alg».proof.Proof.Gen.KernelIdeal.Frame
import proofs.«141536_j6889127543055_1_alg».proof.Proof.Pay3
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL Idealize.SL.Sem Cert.Stages
open Idealize.ShloMosaic.Pipeline (Dat Cfg Window)

variable (V : (c : Dev nD) → (b : Ref sig .tc) → Buf (Elt Ideal) ((c : Thread nD τ).loc b))

theorem zero2_3 : (![0, 0] : Fin 2 → Nat) = fun _ => 0 := funext fun a => by fin_cases a <;> rfl

/-- The index maps over the grid: the embeddings' and the output's block is row block t, the weight's and the bias's is
    block (0, 0). -/
theorem maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt3 (t : Fin cfg3.N) : t.val < 20 := lt_of_lt_of_eq t.isLt N_3

/-- Row r of block t is row 5000·t + r of the array. -/
def rowOf3 (t : Fin cfg3.N) (r : Fin 5000) : Fin 100000 :=
  ⟨5000 * t.val + r.val, by have := point_lt3 t; have := r.isLt; omega⟩

theorem emb3_h (t : Fin cfg3.N) (r : Fin 5000) (k : Fin 64) :
    ((cfg3.win 0).blk t).view.emb (ix2 r k) = (ix2 (rowOf3 t r) k : S100000x64.Idx) := by
  obtain ⟨e0, e1, -⟩ := maps3 t
  funext a; apply Fin.ext
  match a with
  | ⟨0, _⟩ => show win3_0.index t (0 : Fin 2) * 5000 + 1 * r.val = 5000 * t.val + r.val; omega
  | ⟨1, _⟩ => show win3_0.index t (1 : Fin 2) * 64 + 1 * k.val = k.val; omega

theorem emb3_w (t : Fin cfg3.N) (k : Fin 64) (j : Fin 40) :
    ((cfg3.win 1).blk t).view.emb (ix2 k j) = (ix2 k j : S64x40.Idx) := by
  obtain ⟨-, -, e2, e3, -⟩ := maps3 t
  funext a; apply Fin.ext
  match a with
  | ⟨0, _⟩ => show win3_1.index t (0 : Fin 2) * 64 + 1 * k.val = k.val; omega
  | ⟨1, _⟩ => show win3_1.index t (1 : Fin 2) * 40 + 1 * j.val = j.val; omega

theorem emb3_b (t : Fin cfg3.N) (j : Fin 40) :
    ((cfg3.win 2).blk t).view.emb (ix2 (0 : Fin 1) j) = (ix2 (0 : Fin 1) j : S1x40.Idx) := by
  obtain ⟨-, -, -, -, e4, e5, -⟩ := maps3 t
  funext a; apply Fin.ext
  match a with
  | ⟨0, _⟩ => show win3_2.index t (0 : Fin 2) * 1 + 1 * 0 = 0; omega
  | ⟨1, _⟩ => show win3_2.index t (1 : Fin 2) * 40 + 1 * j.val = j.val; omega

theorem emb3_o (t : Fin cfg3.N) (r : Fin 5000) (j : Fin 40) :
    ((cfg3.win 3).blk t).view.emb (ix2 r j) = (ix2 (rowOf3 t r) j : S100000x40.Idx) := by
  obtain ⟨-, -, -, -, -, -, e6, e7⟩ := maps3 t
  funext a; apply Fin.ext
  match a with
  | ⟨0, _⟩ => show win3_3.index t (0 : Fin 2) * 5000 + 1 * r.val = 5000 * t.val + r.val; omega
  | ⟨1, _⟩ => show win3_3.index t (1 : Fin 2) * 40 + 1 * j.val = j.val; omega

/-- The logits of row r of point t's blocks are the logits of row 5000·t + r of the arrays. -/
theorem logit_blk (c : Dev nD) (t : Fin cfg3.N) (r : Fin 5000) (j : Fin 40) :
    logitAt (iblk3 V c 0 t) (iblk3 V c 1 t) (iblk3 V c 2 t) r j = logitAt (V c main_v70) (V c main_v71) (V c main_v72) (rowOf3 t r) j := by
  have hh : ∀ k : Fin 64, iblk3 V c 0 t (ix2 r k) = V c main_v70 (ix2 (rowOf3 t r) k) := fun k => congrArg (V c main_v70) (emb3_h t r k)
  have hw : ∀ k : Fin 64, iblk3 V c 1 t (ix2 k j) = V c main_v71 (ix2 k j) := fun k => congrArg (V c main_v71) (emb3_w t k j)
  have hb : iblk3 V c 2 t (ix2 (0 : Fin 1) j) = V c main_v72 (ix2 (0 : Fin 1) j) := congrArg (V c main_v72) (emb3_b t j)
  unfold logitAt
  rw [hb]
  exact congrArg (· + V c main_v72 (ix2 (0 : Fin 1) j)) (Finset.sum_congr rfl fun k _ => by rw [hh k, hw k])

/-- What point t writes back is block t of the output layer of the arrays as the region finds them. -/
theorem flushed3 (c : Dev nD) (t : Fin cfg3.N) :
    (dat3 V c).flushed 3 t = ((cfg3.win 3).blk t).view.read (Elt Ideal) (fin (V c main_v70) (V c main_v71) (V c main_v72)) := by
  show (cfg3.win 3).cut (grid3.coords t) ((dat3 V c).after 3 t) = _
  rw [after3_3]
  unfold out3_3
  rw [View.canon_unit_zero zero2_3]
  simp only [View.ld_unit_zero (S := S5000x64) zero2_3, View.ld_unit_zero (S := S64x40) zero2_3, View.ld_unit_zero (S := S1x40) zero2_3]
  rw [Body.pay3_eq]
  funext y
  obtain ⟨r, j, rfl⟩ : ∃ (r : Fin 5000) (j : Fin 40), y = ix2 r j := ⟨y 0, y 1, eq_ix2 y⟩
  have ho : ((cfg3.win 3).blk t).view.read (Elt Ideal) (fin (V c main_v70) (V c main_v71) (V c main_v72)) (ix2 r j)
      = fin (V c main_v70) (V c main_v71) (V c main_v72) (ix2 (rowOf3 t r) j) :=
    congrArg (fin (V c main_v70) (V c main_v71) (V c main_v72)) (emb3_o t r j)
  rw [ho, fin_apply]
  show finAt (iblk3 V c 0 t) (iblk3 V c 1 t) (iblk3 V c 2 t) r j = _
  unfold finAt shiftedAt rowMaxAt
  simp only [logit_blk V c t r]

/-- An index of the output array is in point t's block iff each coordinate is in the block's range. -/
theorem mem_blk3 (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v73).slice (win3_3.rect t)).set ↔ _
  rw [View.set_slice_whole, Rect.mem_set_unit]
  exact Iff.rfl

/-- Row r is in the block of point r / 5000. -/
theorem cover3 (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  have hN : grid3.N = 20 := N_3
  let t : Fin cfg3.N := ⟨(i 0).val / 5000, by show (i 0).val / 5000 < grid3.N; omega⟩
  obtain ⟨-, -, -, -, -, -, e6, e7⟩ := maps3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 40 ≤ (i 1).val ∧ (i 1).val < win3_3.index t (1 : Fin 2) * 40 + 40; omega

/-- The output array after the region is the output layer of the arrays the region found. -/
theorem final3 (c : Dev nD) :
    (dat3 V c).arrAt 3 cfg3.N = fin (V c main_v70) (V c main_v71) (V c main_v72) :=
  (dat3 V c).arrAt_eq_of_cover 3 _ (fun t _ => flushed3 V c t) cover3

end Cert.KernelIdeal.Arrays

end
-- ==== Proof.RefStages.lean ====
/-
  The reference, stage by stage, as functions of whole arrays.

  The reference's array operations are grouped as the network reads: the edge normalisation g (the product of the two
  end points' degree factors), the dense layer, the message of a round (the normalisation times −1 times the gathered
  source rows), its scatter-add into the target rows, a round's update, and the log-softmax output layer. Each group is
  a function of the arrays that enter it; the dense groups are then read at an index:
    the dense layer is  lin,  one round's update is  upd  of the aggregated messages, the output layer is  fin
  (the row-wise stages), and the message with the factor −1 is the message with the normalisation negated, since
  (−1)·a = −a on every extended real. The gathers and scatter-adds are left as they are: both programs apply the same
  ones to equal arrays.
-/
import proofs.«141536_j6889127543055_1_alg».proof.ReferenceIdeal
import proofs.«141536_j6889127543055_1_alg».proof.Proof.Gen.ReferenceIdeal
import proofs.«141536_j6889127543055_1_alg».proof.Proof.Stages
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Stage

open Cert.ReferenceIdeal Idealize.ShloMosaic Idealize.ShloMosaic.ValueIdx Cert.Stages
open Cert.ReferenceIdeal.Facts₀ Cert.ReferenceIdeal.Facts

variable {F : FTy → Type} [FloatOps F]

/-! ## The groups of operations -/

/-- The source end point of every edge. -/
def row (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The target end point of every edge. -/
def col (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- A node index with a negative value wrapped by the number of nodes, as an index column. -/
def wrapCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The out-degree of every node: ones scatter-added at the source end points. -/
def deg (x1 : (⟨S2x1600000, .i32⟩ : BufTy).Contents (Elt F)) : FVec F S100000 .f32 :=
  Host.scatterAdd scatter_S100000_S1600000x1_S1600000_n_0_0_1 (broadcastInDim S100000 ![] bcast_S_S100000 (constant S_ .f32 0x00000000#32))
    (wrapCol (row x1)) (broadcastInDim S1600000 ![] bcast_S_S1600000 (constant S_ .f32 0x3F800000#32))

/-- The degree of every node, at least 1. -/
def clipDeg (x1 : (⟨S2x1600000, .i32⟩ : BufTy).Contents (Elt F)) : FVec F S100000 .f32 :=
  maximumf (broadcastInDim S100000 ![] bcast_S_S100000 (id (constant S_ .f32 0x3F800000#32))) (deg x1)

/-- The degree factor of every node: max(1, degree) to the power −1/2. -/
def nd (x1 : (⟨S2x1600000, .i32⟩ : BufTy).Contents (Elt F)) : FVec F S100000 .f32 :=
  Host.powf (clipDeg x1) (broadcastInDim S100000 ![] bcast_S_S100000 (constant S_ .f32 0xBF000000#32))

/-- The normalisation of every edge: the product of its end points' degree factors. -/
def g1 (x1 : (⟨S2x1600000, .i32⟩ : BufTy).Contents (Elt F)) : FVec F S1600000 .f32 :=
  mulf (Host.gather gather_S100000_S1600000x1_S1600000_n_0_n_n_0_1_1 (nd x1) (wrapCol (row x1)))
    (Host.gather gather_S100000_S1600000x1_S1600000_n_0_n_n_0_1_1 (nd x1) (wrapCol (col x1)))

/-- A per-edge value spread over the 64 channels. -/
def toCols (v : FVec F S1600000 .f32) : FVec F S1600000x64 .f32 :=
  broadcastInDim S1600000x64 ![0, 1] bcast_S1600000x1_S1600000x64_0_1 (broadcastInDim S1600000x1 ![0] bcast_S1600000_S1600000x1_0 v)

/-- The embeddings of every edge's source. -/
def rows (x1 : (⟨S2x1600000, .i32⟩ : BufTy).Contents (Elt F)) (h : FVec F S100000x64 .f32) : FVec F S1600000x64 .f32 :=
  Host.gather gather_S100000x64_S1600000x1_S1600000x64_1_0_n_n_0_1_164 h (wrapCol (row x1))

/-- The message as the reference computes it: (−1 · normalisation) · source embeddings. -/
def refMsg (x1 : (⟨S2x1600000, .i32⟩ : BufTy).Contents (Elt F)) (h : FVec F S100000x64 .f32) : FVec F S1600000x64 .f32 :=
  mulf (mulf (broadcastInDim S1600000x64 ![] bcast_S_S1600000x64 (constant S_ .f32 0xBF800000#32)) (toCols (g1 x1))) (rows x1 h)

/-- The message with the normalisation negated first. -/
def negMsg (x1 : (⟨S2x1600000, .i32⟩ : BufTy).Contents (Elt F)) (h : FVec F S100000x64 .f32) : FVec F S1600000x64 .f32 :=
  mulf (toCols (Host.negf (g1 x1))) (rows x1 h)

/-- Messages scatter-added at the target end points. -/
def scat (x1 : (⟨S2x1600000, .i32⟩ : BufTy).Contents (Elt F)) (msg : FVec F S1600000x64 .f32) : FVec F S100000x64 .f32 :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 (col x1)) msg

/-- The residual scale: the logistic function of the parameter, plus 1. -/
def scale (x8 : FVec F S1x64 .f32) : FVec F S1x64 .f32 :=
  addf (Host.divf (broadcastInDim S1x64 ![] bcast_S_S1x64 (constant S_ .f32 0x3F800000#32))
      (addf (broadcastInDim S1x64 ![] bcast_S_S1x64 (constant S_ .f32 0x3F800000#32)) (Host.exp (Host.negf x8))))
    (broadcastInDim S1x64 ![] bcast_S_S1x64 (constant S_ .f32 0x3F800000#32))

/-- One round as the reference computes it. -/
def refRound (x1 : (⟨S2x1600000, .i32⟩ : BufTy).Contents (Elt F)) (h raw : FVec F S100000x64 .f32) (x8 : FVec F S1x64 .f32) : FVec F S100000x64 .f32 :=
  addf (mulf (broadcastInDim S100000x64 ![0, 1] bcast_S1x64_S100000x64_0_1 (scale x8)) raw) (scat x1 (refMsg x1 h))

/-- The dense layer as the reference computes it. -/
def refH0 (x0 : FVec F S100000x512 .f32) (x2 : FVec F S64x512 .f32) (x3 : FVec F S64 .f32) : FVec F S100000x64 .f32 :=
  maximumf (addf (Host.dotGeneral dot_S100000x512_S512x64_S100000x64_1_0_0_1_n_n none x0 (transpose S512x64 [1, 0] x2 transposes_S64x512_S512x64_1_0))
      (broadcastInDim S100000x64 ![0, 1] bcast_S1x64_S100000x64_0_1 (broadcastInDim S1x64 ![1] bcast_S64_S1x64_1 x3)))
    (broadcastInDim S100000x64 ![] bcast_S_S100000x64 (constant S_ .f32 0x00000000#32))

/-- The logits as the reference computes them. -/
def refLogits (h : FVec F S100000x64 .f32) (x9 : FVec F S40x64 .f32) (x10 : FVec F S40 .f32) : FVec F S100000x40 .f32 :=
  addf (Host.dotGeneral dot_S100000x64_S64x40_S100000x40_1_0_0_1_n_n none h (transpose S64x40 [1, 0] x9 transposes_S40x64_S64x40_1_0))
    (broadcastInDim S100000x40 ![0, 1] bcast_S1x40_S100000x40_0_1 (broadcastInDim S1x40 ![1] bcast_S40_S1x40_1 x10))

/-- A matrix minus its row maxima (the maximum taken twice from −∞, as the reference does). -/
def refShift (A : FVec F S100000x40 .f32) : FVec F S100000x40 .f32 :=
  subf A (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf A (constant S_ .f32 0xFF800000#32) reducesTo_S100000x40_S100000_d1 h_S_))))

/-- A matrix minus the logarithm of its rows' sums of exponentials. -/
def refLsm (Z : FVec F S100000x40 .f32) : FVec F S100000x40 .f32 :=
  subf Z (broadcastInDim S100000x40 ![0, 1] bcast_S100000x1_S100000x40_0_1 (Host.log (broadcastInDim S100000x1 ![0] bcast_S100000_S100000x1_0
    (Host.reduceAdd (Host.exp Z) (constant S_ .f32 0x00000000#32) reducesTo_S100000x40_S100000_d1 h_S_))))

/-- The output layer as the reference computes it. -/
def refOut (h : FVec F S100000x64 .f32) (x9 : FVec F S40x64 .f32) (x10 : FVec F S40 .f32) : FVec F S100000x40 .f32 :=
  refLsm (refShift (refLogits h x9 x10))

end Cert.ReferenceIdeal.Stage

end
-- ==== Proof.LibStagedLine.lean ====
/-
  A long line of host operations evaluated in pieces.

  The buffer contents after a line of operations is a fold: each operation rewrites the buffers it writes and leaves the
  rest. So the contents after two lines run one after the other are the contents after the second line from the contents
  after the first (the library's after_append), and a line cut at any position n is evaluated as its first n operations, then the rest from what they
  leave. Evaluating a long line piece by piece keeps every term short: a piece's results are stated over the contents the
  piece finds, whatever produced them.

  The operations of a called function read and write through typed references, which move contents along the equation
  between the buffer's type and the value's type. Contents written through a typed reference and read back through the
  same reference are the contents written: the two transports cancel, whatever the equation.
-/
import Idealize.ShloMosaic.Lib.StableHlo.Run
import Idealize.ShloMosaic.Lib.Pipeline.Frame

namespace Idealize.ShloMosaic.StagedLine

open Idealize.ShloMosaic Idealize.ShloMosaic.StableHlo

variable {τ : Topo} {sig : RefSig} {Val : EltTy → Type}

/-- A line cut at position n: its first n operations, then the rest from what they leave. -/
theorem after_take_drop (n : ℕ) (l : List (HloOp τ sig Val)) (V : Valuation τ sig Val) :
    after l V = after (l.drop n) (after (l.take n) V) := by
  rw [← StableHlo.after_append, List.take_append_drop]

/-- Contents written through a typed reference and read back through it are the contents. -/
theorem ofBuf_toBuf {T : BufTy} (x : TRef sig T) (v : T.Contents Val) : x.ofBuf (x.toBuf v) = v := by
  obtain ⟨r, h, h2, h3⟩ := x
  subst h
  rfl

end Idealize.ShloMosaic.StagedLine
-- ==== Proof.Fold.lean ====
/-
  The idealized kernel's buffers at the segment boundaries, as functions of the argument arrays.

  Reading the fold of the buffer contents through @main from the launch: the first stretches leave the two end-point
  vectors of the edges, the degrees, the degree factors and the negated edge normalisation, the transposed first weight
  and the first bias as a row; the dense layer's region leaves the first embeddings H0 = lin x W1ᵀ b1; the next stretch
  leaves the residual scale and the aggregated messages of H0; the first update region leaves H1 = upd (agg H0) H0 s;
  the next stretch the aggregated messages of H1; the second update region H2 = upd (agg H1) H0 s; the last stretch
  the transposed second weight and the second bias as a row; the output region fin H2 W2ᵀ b2. A stretch's results are
  its operations applied to what the stretch found; a region's output array is its stage of the arrays it found, and
  every other buffer passes through a region unchanged.
-/
import proofs.«141536_j6889127543055_1_alg».proof.Proof.Gen.KernelIdeal.Frame
import proofs.«141536_j6889127543055_1_alg».proof.Proof.Reg0
import proofs.«141536_j6889127543055_1_alg».proof.Proof.Reg1
import proofs.«141536_j6889127543055_1_alg».proof.Proof.Reg2
import proofs.«141536_j6889127543055_1_alg».proof.Proof.Reg3
import proofs.«141536_j6889127543055_1_alg».proof.Proof.RefStages
import proofs.«141536_j6889127543055_1_alg».proof.Proof.LibStagedLine
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL Idealize.SL.Sem Cert.Stages Idealize.ShloMosaic.StableHlo Idealize.ShloMosaic.StagedLine

variable (m : (ℓ : Loc nD τ sig) → Buf (Elt Ideal) ℓ) (ρ : Dev nD → PrngReg) (c : Dev nD)

/-! ## The embeddings after each region, as functions of the argument arrays -/

/-- The first embeddings: the dense layer of the features, the transposed first weight and the first bias as a row. -/
def H0 : FVec Ideal S100000x64 .f32 := lin (m ((c : Thread nD τ).loc main_arg0)) (transpose S512x64 [1, 0] (m ((c : Thread nD τ).loc main_arg2)) transposes_S64x512_S512x64_1_0) (shapeCast S1x64 (m ((c : Thread nD τ).loc main_arg3)) shapeCasts_S64_S1x64)

/-- After the first round: the update of the aggregated messages of H0. -/
def H1 : FVec Ideal S100000x64 .f32 := upd (Cert.ReferenceIdeal.Stage.scat (F := Ideal) (m ((c : Thread nD τ).loc main_arg1)) (Cert.ReferenceIdeal.Stage.negMsg (F := Ideal) (m ((c : Thread nD τ).loc main_arg1)) (H0 m c))) (H0 m c) (Cert.ReferenceIdeal.Stage.scale (F := Ideal) (m ((c : Thread nD τ).loc main_arg8)))

/-- After the second round: the update of the aggregated messages of H1. -/
def H2 : FVec Ideal S100000x64 .f32 := upd (Cert.ReferenceIdeal.Stage.scat (F := Ideal) (m ((c : Thread nD τ).loc main_arg1)) (Cert.ReferenceIdeal.Stage.negMsg (F := Ideal) (m ((c : Thread nD τ).loc main_arg1)) (H1 m c))) (H0 m c) (Cert.ReferenceIdeal.Stage.scale (F := Ideal) (m ((c : Thread nD τ).loc main_arg8)))

/-- The log-probabilities: the output layer of H2, the transposed second weight and the second bias as a row. -/
def OUT : FVec Ideal S100000x40 .f32 := fin (H2 m c) (transpose S64x40 [1, 0] (m ((c : Thread nD τ).loc main_arg9)) transposes_S40x64_S64x40_1_0) (shapeCast S1x40 (m ((c : Thread nD τ).loc main_arg10)) shapeCasts_S40_S1x40)

/-! ## After the first stretch: the end points and the degrees -/

set_option maxHeartbeats 4000000 in
theorem W1_v1 : W1 m ρ c (Proc.devRef .tc main_v1) = Cert.ReferenceIdeal.Stage.row (F := Ideal) (m ((c : Thread nD τ).loc main_arg1)) := by
  after_results_simp
  all_goals (try rfl)

set_option maxHeartbeats 4000000 in
theorem W1_v3 : W1 m ρ c (Proc.devRef .tc main_v3) = Cert.ReferenceIdeal.Stage.col (F := Ideal) (m ((c : Thread nD τ).loc main_arg1)) := by
  after_results_simp
  all_goals (try rfl)

set_option maxHeartbeats 4000000 in
theorem W1_v12 : W1 m ρ c (Proc.devRef .tc main_v12) = Cert.ReferenceIdeal.Stage.deg (F := Ideal) (m ((c : Thread nD τ).loc main_arg1)) := by
  after_results_simp
  all_goals (try rfl)

set_option maxHeartbeats 4000000 in
theorem W1_arg0 : W1 m ρ c (Proc.devRef .tc main_arg0) = m ((c : Thread nD τ).loc main_arg0) := by
  after_results_simp
  all_goals (try rfl)

set_option maxHeartbeats 4000000 in
theorem W1_arg2 : W1 m ρ c (Proc.devRef .tc main_arg2) = m ((c : Thread nD τ).loc main_arg2) := by
  after_results_simp
  all_goals (try rfl)

set_option maxHeartbeats 4000000 in
theorem W1_arg3 : W1 m ρ c (Proc.devRef .tc main_arg3) = m ((c : Thread nD τ).loc main_arg3) := by
  after_results_simp
  all_goals (try rfl)

set_option maxHeartbeats 4000000 in
theorem W1_arg8 : W1 m ρ c (Proc.devRef .tc main_arg8) = m ((c : Thread nD τ).loc main_arg8) := by
  after_results_simp
  all_goals (try rfl)

set_option maxHeartbeats 4000000 in
theorem W1_arg9 : W1 m ρ c (Proc.devRef .tc main_arg9) = m ((c : Thread nD τ).loc main_arg9) := by
  after_results_simp
  all_goals (try rfl)

set_option maxHeartbeats 4000000 in
theorem W1_arg10 : W1 m ρ c (Proc.devRef .tc main_arg10) = m ((c : Thread nD τ).loc main_arg10) := by
  after_results_simp
  all_goals (try rfl)

/-! ## The clip's operations move contents along an equation between a buffer's type and its value's type: the identity -/

theorem ofBuf_cst2 (u : (⟨S_, .f32⟩ : BufTy).Contents (Elt Ideal)) :
    (StableHlo.TRef.of (sig := sig) (T := ⟨S_, .f32⟩) main_cst_2).ofBuf u = u := cast_eq _ _

theorem ofBuf_v12 (u : (⟨S100000, .f32⟩ : BufTy).Contents (Elt Ideal)) :
    (StableHlo.TRef.of (sig := sig) (T := ⟨S100000, .f32⟩) main_v12).ofBuf u = u := cast_eq _ _

theorem toBuf_v13 (v : (⟨S100000, .f32⟩ : BufTy).Contents (Elt Ideal)) :
    (StableHlo.TRef.of (sig := sig) (T := ⟨S100000, .f32⟩) main_v13).toBuf v = v := cast_eq _ _

/-! ## After the clip -/

set_option maxHeartbeats 4000000 in
theorem W2_v13 : W2 m ρ c (Proc.devRef .tc main_v13) = Cert.ReferenceIdeal.Stage.clipDeg (F := Ideal) (m ((c : Thread nD τ).loc main_arg1)) := by
  after_results_simp
  simp only [ofBuf_toBuf, ofBuf_cst2, ofBuf_v12, toBuf_v13]
  rfl

set_option maxHeartbeats 4000000 in
theorem W2_v1 : W2 m ρ c (Proc.devRef .tc main_v1) = Cert.ReferenceIdeal.Stage.row (F := Ideal) (m ((c : Thread nD τ).loc main_arg1)) := by
  have e0 := W1_v1 m ρ c
  show StableHlo.after hostOps0_1 (W1 m ρ c) (Proc.devRef .tc main_v1) = _
  generalize W1 m ρ c = V at e0 ⊢
  after_results_simp
  all_goals (try simp only [e0])
  all_goals (try rfl)

set_option maxHeartbeats 4000000 in
theorem W2_v3 : W2 m ρ c (Proc.devRef .tc main_v3) = Cert.ReferenceIdeal.Stage.col (F := Ideal) (m ((c : Thread nD τ).loc main_arg1)) := by
  have e0 := W1_v3 m ρ c
  show StableHlo.after hostOps0_1 (W1 m ρ c) (Proc.devRef .tc main_v3) = _
  generalize W1 m ρ c = V at e0 ⊢
  after_results_simp
  all_goals (try simp only [e0])
  all_goals (try rfl)

set_option maxHeartbeats 4000000 in
theorem W2_arg0 : W2 m ρ c (Proc.devRef .tc main_arg0) = m ((c : Thread nD τ).loc main_arg0) := by
  have e0 := W1_arg0 m ρ c
  show StableHlo.after hostOps0_1 (W1 m ρ c) (Proc.devRef .tc main_arg0) = _
  generalize W1 m ρ c = V at e0 ⊢
  after_results_simp
  all_goals (try simp only [e0])
  all_goals (try rfl)

set_option maxHeartbeats 4000000 in
theorem W2_arg2 : W2 m ρ c (Proc.devRef .tc main_arg2) = m ((c : Thread nD τ).loc main_arg2) := by
  have e0 := W1_arg2 m ρ c
  show StableHlo.after hostOps0_1 (W1 m ρ c) (Proc.devRef .tc main_arg2) = _
  generalize W1 m ρ c = V at e0 ⊢
  after_results_simp
  all_goals (try simp only [e0])
  all_goals (try rfl)

set_option maxHeartbeats 4000000 in
theorem W2_arg3 : W2 m ρ c (Proc.devRef .tc main_arg3) = m ((c : Thread nD τ).loc main_arg3) := by
  have e0 := W1_arg3 m ρ c
  show StableHlo.after hostOps0_1 (W1 m ρ c) (Proc.devRef .tc main_arg3) = _
  generalize W1 m ρ c = V at e0 ⊢
  after_results_simp
  all_goals (try simp only [e0])
  all_goals (try rfl)

set_option maxHeartbeats 4000000 in
theorem W2_arg8 : W2 m ρ c (Proc.devRef .tc main_arg8) = m ((c : Thread nD τ).loc main_arg8) := by
  have e0 := W1_arg8 m ρ c
  show StableHlo.after hostOps0_1 (W1 m ρ c) (Proc.devRef .tc main_arg8) = _
  generalize W1 m ρ c = V at e0 ⊢
  after_results_simp
  all_goals (try simp only [e0])
  all_goals (try rfl)

set_option maxHeartbeats 4000000 in
theorem W2_arg9 : W2 m ρ c (Proc.devRef .tc main_arg9) = m ((c : Thread nD τ).loc main_arg9) := by
  have e0 := W1_arg9 m ρ c
  show StableHlo.after hostOps0_1 (W1 m ρ c) (Proc.devRef .tc main_arg9) = _
  generalize W1 m ρ c = V at e0 ⊢
  after_results_simp
  all_goals (try simp only [e0])
  all_goals (try rfl)

set_option maxHeartbeats 4000000 in
theorem W2_arg10 : W2 m ρ c (Proc.devRef .tc main_arg10) = m ((c : Thread nD τ).loc main_arg10) := by
  have e0 := W1_arg10 m ρ c
  show StableHlo.after hostOps0_1 (W1 m ρ c) (Proc.devRef .tc main_arg10) = _
  generalize W1 m ρ c = V at e0 ⊢
  after_results_simp
  all_goals (try simp only [e0])
  all_goals (try rfl)

/-! ## After the third stretch: the negated normalisation, the transposed first weight, the first bias as a row -/

set_option maxHeartbeats 4000000 in
theorem W3_v31 : W3 m ρ c (Proc.devRef .tc main_v31) = Host.negf (Cert.ReferenceIdeal.Stage.g1 (F := Ideal) (m ((c : Thread nD τ).loc main_arg1))) := by
  have e0 := W2_v13 m ρ c
  have e1 := W2_v1 m ρ c
  have e2 := W2_v3 m ρ c
  show StableHlo.after hostOps0_2 (W2 m ρ c) (Proc.devRef .tc main_v31) = _
  generalize W2 m ρ c = V at e0 e1 e2 ⊢
  after_results_simp
  all_goals (try simp only [e0, e1, e2])
  all_goals (try rfl)

set_option maxHeartbeats 4000000 in
theorem W3_v32 : W3 m ρ c (Proc.devRef .tc main_v32) = transpose S512x64 [1, 0] (m ((c : Thread nD τ).loc main_arg2)) transposes_S64x512_S512x64_1_0 := by
  have e0 := W2_arg2 m ρ c
  show StableHlo.after hostOps0_2 (W2 m ρ c) (Proc.devRef .tc main_v32) = _
  generalize W2 m ρ c = V at e0 ⊢
  after_results_simp
  all_goals (try simp only [e0])
  all_goals (try rfl)

set_option maxHeartbeats 4000000 in
theorem W3_v33 : W3 m ρ c (Proc.devRef .tc main_v33) = shapeCast S1x64 (m ((c : Thread nD τ).loc main_arg3)) shapeCasts_S64_S1x64 := by
  have e0 := W2_arg3 m ρ c
  show StableHlo.after hostOps0_2 (W2 m ρ c) (Proc.devRef .tc main_v33) = _
  generalize W2 m ρ c = V at e0 ⊢
  after_results_simp
  all_goals (try simp only [e0])
  all_goals (try rfl)

set_option maxHeartbeats 4000000 in
theorem W3_v1 : W3 m ρ c (Proc.devRef .tc main_v1) = Cert.ReferenceIdeal.Stage.row (F := Ideal) (m ((c : Thread nD τ).loc main_arg1)) := by
  have e0 := W2_v1 m ρ c
  show StableHlo.after hostOps0_2 (W2 m ρ c) (Proc.devRef .tc main_v1) = _
  generalize W2 m ρ c = V at e0 ⊢
  after_results_simp
  all_goals (try simp only [e0])
  all_goals (try rfl)

set_option maxHeartbeats 4000000 in
theorem W3_v3 : W3 m ρ c (Proc.devRef .tc main_v3) = Cert.ReferenceIdeal.Stage.col (F := Ideal) (m ((c : Thread nD τ).loc main_arg1)) := by
  have e0 := W2_v3 m ρ c
  show StableHlo.after hostOps0_2 (W2 m ρ c) (Proc.devRef .tc main_v3) = _
  generalize W2 m ρ c = V at e0 ⊢
  after_results_simp
  all_goals (try simp only [e0])
  all_goals (try rfl)

set_option maxHeartbeats 4000000 in
theorem W3_arg0 : W3 m ρ c (Proc.devRef .tc main_arg0) = m ((c : Thread nD τ).loc main_arg0) := by
  have e0 := W2_arg0 m ρ c
  show StableHlo.after hostOps0_2 (W2 m ρ c) (Proc.devRef .tc main_arg0) = _
  generalize W2 m ρ c = V at e0 ⊢
  after_results_simp
  all_goals (try simp only [e0])
  all_goals (try rfl)

set_option maxHeartbeats 4000000 in
theorem W3_arg8 : W3 m ρ c (Proc.devRef .tc main_arg8) = m ((c : Thread nD τ).loc main_arg8) := by
  have e0 := W2_arg8 m ρ c
  show StableHlo.after hostOps0_2 (W2 m ρ c) (Proc.devRef .tc main_arg8) = _
  generalize W2 m ρ c = V at e0 ⊢
  after_results_simp
  all_goals (try simp only [e0])
  all_goals (try rfl)

set_option maxHeartbeats 4000000 in
theorem W3_arg9 : W3 m ρ c (Proc.devRef .tc main_arg9) = m ((c : Thread nD τ).loc main_arg9) := by
  have e0 := W2_arg9 m ρ c
  show StableHlo.after hostOps0_2 (W2 m ρ c) (Proc.devRef .tc main_arg9) = _
  generalize W2 m ρ c = V at e0 ⊢
  after_results_simp
  all_goals (try simp only [e0])
  all_goals (try rfl)

set_option maxHeartbeats 4000000 in
theorem W3_arg10 : W3 m ρ c (Proc.devRef .tc main_arg10) = m ((c : Thread nD τ).loc main_arg10) := by
  have e0 := W2_arg10 m ρ c
  show StableHlo.after hostOps0_2 (W2 m ρ c) (Proc.devRef .tc main_arg10) = _
  generalize W2 m ρ c = V at e0 ⊢
  after_results_simp
  all_goals (try simp only [e0])
  all_goals (try rfl)

/-! ## After the dense layer's region -/

theorem W4_v34 : W4 m ρ c (Proc.devRef .tc main_v34) = H0 m c := by
  rw [show W4 m ρ c (Proc.devRef .tc main_v34) = (dat0 (V3 m ρ) c).arrAt 3 cfg0.N from W4_arr m ρ c 3, Arrays.final0]
  show lin (W3 m ρ c (Proc.devRef .tc main_arg0)) (W3 m ρ c (Proc.devRef .tc main_v32)) (W3 m ρ c (Proc.devRef .tc main_v33)) = _
  rw [W3_arg0, W3_v32, W3_v33]
  rfl

theorem W4_v1 : W4 m ρ c (Proc.devRef .tc main_v1) = Cert.ReferenceIdeal.Stage.row (F := Ideal) (m ((c : Thread nD τ).loc main_arg1)) :=
  (W4_of_ne m ρ c main_v1 (by decide)).trans (W3_v1 m ρ c)

theorem W4_v3 : W4 m ρ c (Proc.devRef .tc main_v3) = Cert.ReferenceIdeal.Stage.col (F := Ideal) (m ((c : Thread nD τ).loc main_arg1)) :=
  (W4_of_ne m ρ c main_v3 (by decide)).trans (W3_v3 m ρ c)

theorem W4_v31 : W4 m ρ c (Proc.devRef .tc main_v31) = Host.negf (Cert.ReferenceIdeal.Stage.g1 (F := Ideal) (m ((c : Thread nD τ).loc main_arg1))) :=
  (W4_of_ne m ρ c main_v31 (by decide)).trans (W3_v31 m ρ c)

theorem W4_arg8 : W4 m ρ c (Proc.devRef .tc main_arg8) = m ((c : Thread nD τ).loc main_arg8) :=
  (W4_of_ne m ρ c main_arg8 (by decide)).trans (W3_arg8 m ρ c)

theorem W4_arg9 : W4 m ρ c (Proc.devRef .tc main_arg9) = m ((c : Thread nD τ).loc main_arg9) :=
  (W4_of_ne m ρ c main_arg9 (by decide)).trans (W3_arg9 m ρ c)

theorem W4_arg10 : W4 m ρ c (Proc.devRef .tc main_arg10) = m ((c : Thread nD τ).loc main_arg10) :=
  (W4_of_ne m ρ c main_arg10 (by decide)).trans (W3_arg10 m ρ c)

/-! ## After the next stretch: the scale and the first aggregation -/

set_option maxHeartbeats 4000000 in
theorem W5_v42 : W5 m ρ c (Proc.devRef .tc main_v42) = Cert.ReferenceIdeal.Stage.scale (F := Ideal) (m ((c : Thread nD τ).loc main_arg8)) := by
  have e0 := W4_arg8 m ρ c
  show StableHlo.after hostOps1 (W4 m ρ c) (Proc.devRef .tc main_v42) = _
  generalize W4 m ρ c = V at e0 ⊢
  after_results_simp
  all_goals (try simp only [e0])
  all_goals (try rfl)

set_option maxHeartbeats 4000000 in
theorem W5_v55 : W5 m ρ c (Proc.devRef .tc main_v55) = Cert.ReferenceIdeal.Stage.scat (F := Ideal) (m ((c : Thread nD τ).loc main_arg1)) (Cert.ReferenceIdeal.Stage.negMsg (F := Ideal) (m ((c : Thread nD τ).loc main_arg1)) (H0 m c)) := by
  have e0 := W4_v3 m ρ c
  have e1 := W4_v31 m ρ c
  have e2 := W4_v34 m ρ c
  have e3 := W4_v1 m ρ c
  show StableHlo.after hostOps1 (W4 m ρ c) (Proc.devRef .tc main_v55) = _
  generalize W4 m ρ c = V at e0 e1 e2 e3 ⊢
  after_results_simp
  all_goals (try simp only [e0, e1, e2, e3])
  all_goals (try rfl)

set_option maxHeartbeats 4000000 in
theorem W5_v34 : W5 m ρ c (Proc.devRef .tc main_v34) = H0 m c := by
  have e0 := W4_v34 m ρ c
  show StableHlo.after hostOps1 (W4 m ρ c) (Proc.devRef .tc main_v34) = _
  generalize W4 m ρ c = V at e0 ⊢
  after_results_simp
  all_goals (try simp only [e0])
  all_goals (try rfl)

set_option maxHeartbeats 4000000 in
theorem W5_v1 : W5 m ρ c (Proc.devRef .tc main_v1) = Cert.ReferenceIdeal.Stage.row (F := Ideal) (m ((c : Thread nD τ).loc main_arg1)) := by
  have e0 := W4_v1 m ρ c
  show StableHlo.after hostOps1 (W4 m ρ c) (Proc.devRef .tc main_v1) = _
  generalize W4 m ρ c = V at e0 ⊢
  after_results_simp
  all_goals (try simp only [e0])
  all_goals (try rfl)

set_option maxHeartbeats 4000000 in
theorem W5_v3 : W5 m ρ c (Proc.devRef .tc main_v3) = Cert.ReferenceIdeal.Stage.col (F := Ideal) (m ((c : Thread nD τ).loc main_arg1)) := by
  have e0 := W4_v3 m ρ c
  show StableHlo.after hostOps1 (W4 m ρ c) (Proc.devRef .tc main_v3) = _
  generalize W4 m ρ c = V at e0 ⊢
  after_results_simp
  all_goals (try simp only [e0])
  all_goals (try rfl)

set_option maxHeartbeats 4000000 in
theorem W5_v31 : W5 m ρ c (Proc.devRef .tc main_v31) = Host.negf (Cert.ReferenceIdeal.Stage.g1 (F := Ideal) (m ((c : Thread nD τ).loc main_arg1))) := by
  have e0 := W4_v31 m ρ c
  show StableHlo.after hostOps1 (W4 m ρ c) (Proc.devRef .tc main_v31) = _
  generalize W4 m ρ c = V at e0 ⊢
  after_results_simp
  all_goals (try simp only [e0])
  all_goals (try rfl)

set_option maxHeartbeats 4000000 in
theorem W5_arg9 : W5 m ρ c (Proc.devRef .tc main_arg9) = m ((c : Thread nD τ).loc main_arg9) := by
  have e0 := W4_arg9 m ρ c
  show StableHlo.after hostOps1 (W4 m ρ c) (Proc.devRef .tc main_arg9) = _
  generalize W4 m ρ c = V at e0 ⊢
  after_results_simp
  all_goals (try simp only [e0])
  all_goals (try rfl)

set_option maxHeartbeats 4000000 in
theorem W5_arg10 : W5 m ρ c (Proc.devRef .tc main_arg10) = m ((c : Thread nD τ).loc main_arg10) := by
  have e0 := W4_arg10 m ρ c
  show StableHlo.after hostOps1 (W4 m ρ c) (Proc.devRef .tc main_arg10) = _
  generalize W4 m ρ c = V at e0 ⊢
  after_results_simp
  all_goals (try simp only [e0])
  all_goals (try rfl)

/-! ## After the first update region -/

theorem W6_v56 : W6 m ρ c (Proc.devRef .tc main_v56) = H1 m c := by
  rw [show W6 m ρ c (Proc.devRef .tc main_v56) = (dat1 (V5 m ρ) c).arrAt 3 cfg1.N from W6_arr m ρ c 3, Arrays.final1]
  show upd (W5 m ρ c (Proc.devRef .tc main_v55)) (W5 m ρ c (Proc.devRef .tc main_v34)) (W5 m ρ c (Proc.devRef .tc main_v42)) = _
  rw [W5_v55, W5_v34, W5_v42]
  rfl

theorem W6_v34 : W6 m ρ c (Proc.devRef .tc main_v34) = H0 m c :=
  ((W6_arr m ρ c 1).trans (((dat1 (V5 m ρ) c).arrAt_in 1 rfl _).trans (A_eq1 (V5 m ρ) c 1))).trans (W5_v34 m ρ c)

theorem W6_v42 : W6 m ρ c (Proc.devRef .tc main_v42) = Cert.ReferenceIdeal.Stage.scale (F := Ideal) (m ((c : Thread nD τ).loc main_arg8)) :=
  ((W6_arr m ρ c 2).trans (((dat1 (V5 m ρ) c).arrAt_in 2 rfl _).trans (A_eq1 (V5 m ρ) c 2))).trans (W5_v42 m ρ c)

theorem W6_v1 : W6 m ρ c (Proc.devRef .tc main_v1) = Cert.ReferenceIdeal.Stage.row (F := Ideal) (m ((c : Thread nD τ).loc main_arg1)) :=
  (W6_of_ne m ρ c main_v1 (by decide)).trans (W5_v1 m ρ c)

theorem W6_v3 : W6 m ρ c (Proc.devRef .tc main_v3) = Cert.ReferenceIdeal.Stage.col (F := Ideal) (m ((c : Thread nD τ).loc main_arg1)) :=
  (W6_of_ne m ρ c main_v3 (by decide)).trans (W5_v3 m ρ c)

theorem W6_v31 : W6 m ρ c (Proc.devRef .tc main_v31) = Host.negf (Cert.ReferenceIdeal.Stage.g1 (F := Ideal) (m ((c : Thread nD τ).loc main_arg1))) :=
  (W6_of_ne m ρ c main_v31 (by decide)).trans (W5_v31 m ρ c)

theorem W6_arg9 : W6 m ρ c (Proc.devRef .tc main_arg9) = m ((c : Thread nD τ).loc main_arg9) :=
  (W6_of_ne m ρ c main_arg9 (by decide)).trans (W5_arg9 m ρ c)

theorem W6_arg10 : W6 m ρ c (Proc.devRef .tc main_arg10) = m ((c : Thread nD τ).loc main_arg10) :=
  (W6_of_ne m ρ c main_arg10 (by decide)).trans (W5_arg10 m ρ c)

/-! ## After the next stretch: the second aggregation -/

set_option maxHeartbeats 4000000 in
theorem W7_v69 : W7 m ρ c (Proc.devRef .tc main_v69) = Cert.ReferenceIdeal.Stage.scat (F := Ideal) (m ((c : Thread nD τ).loc main_arg1)) (Cert.ReferenceIdeal.Stage.negMsg (F := Ideal) (m ((c : Thread nD τ).loc main_arg1)) (H1 m c)) := by
  have e0 := W6_v3 m ρ c
  have e1 := W6_v31 m ρ c
  have e2 := W6_v56 m ρ c
  have e3 := W6_v1 m ρ c
  show StableHlo.after hostOps2 (W6 m ρ c) (Proc.devRef .tc main_v69) = _
  generalize W6 m ρ c = V at e0 e1 e2 e3 ⊢
  after_results_simp
  all_goals (try simp only [e0, e1, e2, e3])
  all_goals (try rfl)

set_option maxHeartbeats 4000000 in
theorem W7_v34 : W7 m ρ c (Proc.devRef .tc main_v34) = H0 m c := by
  have e0 := W6_v34 m ρ c
  show StableHlo.after hostOps2 (W6 m ρ c) (Proc.devRef .tc main_v34) = _
  generalize W6 m ρ c = V at e0 ⊢
  after_results_simp
  all_goals (try simp only [e0])
  all_goals (try rfl)

set_option maxHeartbeats 4000000 in
theorem W7_v42 : W7 m ρ c (Proc.devRef .tc main_v42) = Cert.ReferenceIdeal.Stage.scale (F := Ideal) (m ((c : Thread nD τ).loc main_arg8)) := by
  have e0 := W6_v42 m ρ c
  show StableHlo.after hostOps2 (W6 m ρ c) (Proc.devRef .tc main_v42) = _
  generalize W6 m ρ c = V at e0 ⊢
  after_results_simp
  all_goals (try simp only [e0])
  all_goals (try rfl)

set_option maxHeartbeats 4000000 in
theorem W7_arg9 : W7 m ρ c (Proc.devRef .tc main_arg9) = m ((c : Thread nD τ).loc main_arg9) := by
  have e0 := W6_arg9 m ρ c
  show StableHlo.after hostOps2 (W6 m ρ c) (Proc.devRef .tc main_arg9) = _
  generalize W6 m ρ c = V at e0 ⊢
  after_results_simp
  all_goals (try simp only [e0])
  all_goals (try rfl)

set_option maxHeartbeats 4000000 in
theorem W7_arg10 : W7 m ρ c (Proc.devRef .tc main_arg10) = m ((c : Thread nD τ).loc main_arg10) := by
  have e0 := W6_arg10 m ρ c
  show StableHlo.after hostOps2 (W6 m ρ c) (Proc.devRef .tc main_arg10) = _
  generalize W6 m ρ c = V at e0 ⊢
  after_results_simp
  all_goals (try simp only [e0])
  all_goals (try rfl)

/-! ## After the second update region -/

theorem W8_v70 : W8 m ρ c (Proc.devRef .tc main_v70) = H2 m c := by
  rw [show W8 m ρ c (Proc.devRef .tc main_v70) = (dat2 (V7 m ρ) c).arrAt 3 cfg2.N from W8_arr m ρ c 3, Arrays.final2]
  show upd (W7 m ρ c (Proc.devRef .tc main_v69)) (W7 m ρ c (Proc.devRef .tc main_v34)) (W7 m ρ c (Proc.devRef .tc main_v42)) = _
  rw [W7_v69, W7_v34, W7_v42]
  rfl

theorem W8_arg9 : W8 m ρ c (Proc.devRef .tc main_arg9) = m ((c : Thread nD τ).loc main_arg9) :=
  (W8_of_ne m ρ c main_arg9 (by decide)).trans (W7_arg9 m ρ c)

theorem W8_arg10 : W8 m ρ c (Proc.devRef .tc main_arg10) = m ((c : Thread nD τ).loc main_arg10) :=
  (W8_of_ne m ρ c main_arg10 (by decide)).trans (W7_arg10 m ρ c)

/-! ## After the last stretch -/

set_option maxHeartbeats 4000000 in
theorem W9_v71 : W9 m ρ c (Proc.devRef .tc main_v71) = transpose S64x40 [1, 0] (m ((c : Thread nD τ).loc main_arg9)) transposes_S40x64_S64x40_1_0 := by
  have e0 := W8_arg9 m ρ c
  show StableHlo.after hostOps3 (W8 m ρ c) (Proc.devRef .tc main_v71) = _
  generalize W8 m ρ c = V at e0 ⊢
  after_results_simp
  all_goals (try simp only [e0])
  all_goals (try rfl)

set_option maxHeartbeats 4000000 in
theorem W9_v72 : W9 m ρ c (Proc.devRef .tc main_v72) = shapeCast S1x40 (m ((c : Thread nD τ).loc main_arg10)) shapeCasts_S40_S1x40 := by
  have e0 := W8_arg10 m ρ c
  show StableHlo.after hostOps3 (W8 m ρ c) (Proc.devRef .tc main_v72) = _
  generalize W8 m ρ c = V at e0 ⊢
  after_results_simp
  all_goals (try simp only [e0])
  all_goals (try rfl)

set_option maxHeartbeats 4000000 in
theorem W9_v70 : W9 m ρ c (Proc.devRef .tc main_v70) = H2 m c := by
  have e0 := W8_v70 m ρ c
  show StableHlo.after hostOps3 (W8 m ρ c) (Proc.devRef .tc main_v70) = _
  generalize W8 m ρ c = V at e0 ⊢
  after_results_simp
  all_goals (try simp only [e0])
  all_goals (try rfl)

/-! ## After the output region: the two results -/

/-- The log-probabilities. -/
theorem W10_v73 : W10 m ρ c (Proc.devRef .tc main_v73) = OUT m c := by
  rw [show W10 m ρ c (Proc.devRef .tc main_v73) = (dat3 (V9 m ρ) c).arrAt 3 cfg3.N from W10_arr m ρ c 3, Arrays.final3]
  show fin (W9 m ρ c (Proc.devRef .tc main_v70)) (W9 m ρ c (Proc.devRef .tc main_v71)) (W9 m ρ c (Proc.devRef .tc main_v72)) = _
  rw [W9_v70, W9_v71, W9_v72]
  rfl

/-- The final embeddings: the output region reads them through an input window and leaves them as they were. -/
theorem W10_v70 : W10 m ρ c (Proc.devRef .tc main_v70) = H2 m c :=
  ((W10_arr m ρ c 0).trans (((dat3 (V9 m ρ) c).arrAt_in 0 rfl _).trans (A_eq3 (V9 m ρ) c 0))).trans (W9_v70 m ρ c)

end Cert.KernelIdeal.Fold

end
-- ==== Proof.RefEval.lean ====
/-
  The reference's buffers, evaluated stage by stage.

  The reference is one line of 157 array operations. Cut after the clipped degrees (21 operations), after the dense
  layer (31 more), after the first round (48 more), after the second round (37 more), the rest being the output layer,
  the contents after the whole line are the contents after the last piece, from the contents after the pieces before it.
  Evaluating piece by piece from what the piece finds: the clipped degrees; the edge normalisation as a column and the
  dense layer R0; the residual scale and the first round R1 = round of R0; the second round R2 = round of R1; the output
  layer of R2. The operations of the three called functions (the clip, the rectifier, the log-softmax) move contents
  along an equation between a buffer's type and its value's type, which is the identity.
-/
import proofs.«141536_j6889127543055_1_alg».proof.Proof.RefRunP
import proofs.«141536_j6889127543055_1_alg».proof.Proof.RefStages
import proofs.«141536_j6889127543055_1_alg».proof.Proof.LibStagedLine
import Idealize.ShloMosaic.Lib.StableHlo.Run

set_option maxRecDepth 16384

noncomputable section

namespace Cert.ReferenceIdeal.Eval

open Cert.ReferenceIdeal Cert.ReferenceIdeal.ValueP Idealize.ShloMosaic Idealize.ShloMosaic.TcCoe Idealize.SL.Sem Idealize.ShloMosaic.StableHlo
open Cert.ReferenceIdeal.Facts₀ Cert.ReferenceIdeal.Facts Idealize.ShloMosaic.StagedLine

/-! ## The five pieces of the line -/

abbrev LA : List (HloOp τ sig (Elt Ideal)) := (ops (F := Ideal)).take 21
abbrev LB : List (HloOp τ sig (Elt Ideal)) := ((ops (F := Ideal)).drop 21).take 31
abbrev LC : List (HloOp τ sig (Elt Ideal)) := (((ops (F := Ideal)).drop 21).drop 31).take 48
abbrev LD : List (HloOp τ sig (Elt Ideal)) := ((((ops (F := Ideal)).drop 21).drop 31).drop 48).take 37
abbrev LE : List (HloOp τ sig (Elt Ideal)) := ((((ops (F := Ideal)).drop 21).drop 31).drop 48).drop 37

theorem ops_split : (ops (F := Ideal)) = LA ++ (LB ++ (LC ++ (LD ++ LE))) := by
  simp only [LA, LB, LC, LD, LE, List.take_append_drop]

variable (m : (ℓ : Loc nD τ sig) → Buf (Elt Ideal) ℓ) (c : Dev nD)

/-- The contents after each piece. -/
def SA : Valuation τ sig (Elt Ideal) := after LA (launchContents m c)
def SB : Valuation τ sig (Elt Ideal) := after LB (SA m c)
def SC : Valuation τ sig (Elt Ideal) := after LC (SB m c)
def SD : Valuation τ sig (Elt Ideal) := after LD (SC m c)
def SE : Valuation τ sig (Elt Ideal) := after LE (SD m c)

theorem after_ops : after (ops (F := Ideal)) (launchContents m c) = SE m c := by
  rw [ops_split, after_append, after_append, after_append, after_append]
  rfl

/-! ## The values the stages leave, as functions of the argument arrays -/

/-- The dense layer. -/
def R0 : FVec Ideal S100000x64 .f32 := Stage.refH0 (F := Ideal) (m ((c.tc : Thread nD τ).loc main_arg0)) (m ((c.tc : Thread nD τ).loc main_arg2)) (m ((c.tc : Thread nD τ).loc main_arg3))
/-- The first round. -/
def R1 : FVec Ideal S100000x64 .f32 := Stage.refRound (F := Ideal) (m ((c.tc : Thread nD τ).loc main_arg1)) (R0 m c) (R0 m c) (m ((c.tc : Thread nD τ).loc main_arg8))
/-- The second round. -/
def R2 : FVec Ideal S100000x64 .f32 := Stage.refRound (F := Ideal) (m ((c.tc : Thread nD τ).loc main_arg1)) (R1 m c) (R0 m c) (m ((c.tc : Thread nD τ).loc main_arg8))
/-- The output layer. -/
def ROUT : FVec Ideal S100000x40 .f32 := Stage.refOut (F := Ideal) (R2 m c) (m ((c.tc : Thread nD τ).loc main_arg9)) (m ((c.tc : Thread nD τ).loc main_arg10))

/-! ## The called functions' operations move contents along an equation between a buffer's type and its value's type: the identity -/

theorem ofBuf_cst2 (u : (⟨S_, .f32⟩ : BufTy).Contents (Elt Ideal)) :
    (TRef.of (sig := sig) (T := ⟨S_, .f32⟩) main_cst_2).ofBuf u = u := cast_eq _ _

theorem ofBuf_v12 (u : (⟨S100000, .f32⟩ : BufTy).Contents (Elt Ideal)) :
    (TRef.of (sig := sig) (T := ⟨S100000, .f32⟩) main_v12).ofBuf u = u := cast_eq _ _

theorem toBuf_v13 (u : (⟨S100000, .f32⟩ : BufTy).Contents (Elt Ideal)) :
    (TRef.of (sig := sig) (T := ⟨S100000, .f32⟩) main_v13).toBuf u = u := cast_eq _ _

theorem ofBuf_v36 (u : (⟨S100000x64, .f32⟩ : BufTy).Contents (Elt Ideal)) :
    (TRef.of (sig := sig) (T := ⟨S100000x64, .f32⟩) main_v36).ofBuf u = u := cast_eq _ _

theorem toBuf_v37 (u : (⟨S100000x64, .f32⟩ : BufTy).Contents (Elt Ideal)) :
    (TRef.of (sig := sig) (T := ⟨S100000x64, .f32⟩) main_v37).toBuf u = u := cast_eq _ _

theorem ofBuf_v112 (u : (⟨S100000x40, .f32⟩ : BufTy).Contents (Elt Ideal)) :
    (TRef.of (sig := sig) (T := ⟨S100000x40, .f32⟩) main_v112).ofBuf u = u := cast_eq _ _

theorem toBuf_v113 (u : (⟨S100000x40, .f32⟩ : BufTy).Contents (Elt Ideal)) :
    (TRef.of (sig := sig) (T := ⟨S100000x40, .f32⟩) main_v113).toBuf u = u := cast_eq _ _

/-! ## Through the clipped degrees -/

set_option maxHeartbeats 4000000 in
theorem SA_v13 : SA m c (Proc.devRef .tc main_v13) = Stage.clipDeg (F := Ideal) (m ((c.tc : Thread nD τ).loc main_arg1)) := by
  show after LA (launchContents m c) (Proc.devRef .tc main_v13) = _
  simp only [LA, LB, LC, LD, LE, ops, List.take_succ_cons, List.take_zero, List.drop_succ_cons, List.drop_zero]
  after_results_simp
  all_goals (try simp only [ofBuf_toBuf, ofBuf_cst2, ofBuf_v12, toBuf_v13, ofBuf_v36, toBuf_v37, ofBuf_v112, toBuf_v113])
  all_goals (try rfl)

set_option maxHeartbeats 4000000 in
theorem SA_v1 : SA m c (Proc.devRef .tc main_v1) = Stage.row (F := Ideal) (m ((c.tc : Thread nD τ).loc main_arg1)) := by
  show after LA (launchContents m c) (Proc.devRef .tc main_v1) = _
  simp only [LA, LB, LC, LD, LE, ops, List.take_succ_cons, List.take_zero, List.drop_succ_cons, List.drop_zero]
  after_results_simp
  all_goals (try rfl)

set_option maxHeartbeats 4000000 in
theorem SA_v3 : SA m c (Proc.devRef .tc main_v3) = Stage.col (F := Ideal) (m ((c.tc : Thread nD τ).loc main_arg1)) := by
  show after LA (launchContents m c) (Proc.devRef .tc main_v3) = _
  simp only [LA, LB, LC, LD, LE, ops, List.take_succ_cons, List.take_zero, List.drop_succ_cons, List.drop_zero]
  after_results_simp
  all_goals (try rfl)

set_option maxHeartbeats 4000000 in
theorem SA_arg0 : SA m c (Proc.devRef .tc main_arg0) = m ((c.tc : Thread nD τ).loc main_arg0) := by
  show after LA (launchContents m c) (Proc.devRef .tc main_arg0) = _
  simp only [LA, LB, LC, LD, LE, ops, List.take_succ_cons, List.take_zero, List.drop_succ_cons, List.drop_zero]
  after_results_simp
  all_goals (try rfl)

set_option maxHeartbeats 4000000 in
theorem SA_arg2 : SA m c (Proc.devRef .tc main_arg2) = m ((c.tc : Thread nD τ).loc main_arg2) := by
  show after LA (launchContents m c) (Proc.devRef .tc main_arg2) = _
  simp only [LA, LB, LC, LD, LE, ops, List.take_succ_cons, List.take_zero, List.drop_succ_cons, List.drop_zero]
  after_results_simp
  all_goals (try rfl)

set_option maxHeartbeats 4000000 in
theorem SA_arg3 : SA m c (Proc.devRef .tc main_arg3) = m ((c.tc : Thread nD τ).loc main_arg3) := by
  show after LA (launchContents m c) (Proc.devRef .tc main_arg3) = _
  simp only [LA, LB, LC, LD, LE, ops, List.take_succ_cons, List.take_zero, List.drop_succ_cons, List.drop_zero]
  after_results_simp
  all_goals (try rfl)

set_option maxHeartbeats 4000000 in
theorem SA_arg8 : SA m c (Proc.devRef .tc main_arg8) = m ((c.tc : Thread nD τ).loc main_arg8) := by
  show after LA (launchContents m c) (Proc.devRef .tc main_arg8) = _
  simp only [LA, LB, LC, LD, LE, ops, List.take_succ_cons, List.take_zero, List.drop_succ_cons, List.drop_zero]
  after_results_simp
  all_goals (try rfl)

set_option maxHeartbeats 4000000 in
theorem SA_arg9 : SA m c (Proc.devRef .tc main_arg9) = m ((c.tc : Thread nD τ).loc main_arg9) := by
  show after LA (launchContents m c) (Proc.devRef .tc main_arg9) = _
  simp only [LA, LB, LC, LD, LE, ops, List.take_succ_cons, List.take_zero, List.drop_succ_cons, List.drop_zero]
  after_results_simp
  all_goals (try rfl)

set_option maxHeartbeats 4000000 in
theorem SA_arg10 : SA m c (Proc.devRef .tc main_arg10) = m ((c.tc : Thread nD τ).loc main_arg10) := by
  show after LA (launchContents m c) (Proc.devRef .tc main_arg10) = _
  simp only [LA, LB, LC, LD, LE, ops, List.take_succ_cons, List.take_zero, List.drop_succ_cons, List.drop_zero]
  after_results_simp
  all_goals (try rfl)

/-! ## Through the dense layer -/

set_option maxHeartbeats 4000000 in
theorem SB_v31 : SB m c (Proc.devRef .tc main_v31) = broadcastInDim S1600000x1 ![0] bcast_S1600000_S1600000x1_0 (Stage.g1 (F := Ideal) (m ((c.tc : Thread nD τ).loc main_arg1))) := by
  have e0 := SA_v13 m c
  have e1 := SA_v1 m c
  have e2 := SA_v3 m c
  show after LB (SA m c) (Proc.devRef .tc main_v31) = _
  generalize SA m c = V at e0 e1 e2 ⊢
  simp only [LA, LB, LC, LD, LE, ops, List.take_succ_cons, List.take_zero, List.drop_succ_cons, List.drop_zero]
  after_results_simp
  all_goals (try simp only [e0, e1, e2])
  all_goals (try rfl)

set_option maxHeartbeats 4000000 in
theorem SB_v37 : SB m c (Proc.devRef .tc main_v37) = R0 m c := by
  have e0 := SA_arg0 m c
  have e1 := SA_arg2 m c
  have e2 := SA_arg3 m c
  show after LB (SA m c) (Proc.devRef .tc main_v37) = _
  generalize SA m c = V at e0 e1 e2 ⊢
  simp only [LA, LB, LC, LD, LE, ops, List.take_succ_cons, List.take_zero, List.drop_succ_cons, List.drop_zero]
  after_results_simp
  all_goals (try simp only [e0, e1, e2])
  all_goals (try simp only [ofBuf_toBuf, ofBuf_cst2, ofBuf_v12, toBuf_v13, ofBuf_v36, toBuf_v37, ofBuf_v112, toBuf_v113])
  all_goals (try rfl)

set_option maxHeartbeats 4000000 in
theorem SB_v1 : SB m c (Proc.devRef .tc main_v1) = Stage.row (F := Ideal) (m ((c.tc : Thread nD τ).loc main_arg1)) := by
  have e0 := SA_v1 m c
  show after LB (SA m c) (Proc.devRef .tc main_v1) = _
  generalize SA m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SB_v3 : SB m c (Proc.devRef .tc main_v3) = Stage.col (F := Ideal) (m ((c.tc : Thread nD τ).loc main_arg1)) := by
  have e0 := SA_v3 m c
  show after LB (SA m c) (Proc.devRef .tc main_v3) = _
  generalize SA m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SB_arg8 : SB m c (Proc.devRef .tc main_arg8) = m ((c.tc : Thread nD τ).loc main_arg8) := by
  have e0 := SA_arg8 m c
  show after LB (SA m c) (Proc.devRef .tc main_arg8) = _
  generalize SA m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SB_arg9 : SB m c (Proc.devRef .tc main_arg9) = m ((c.tc : Thread nD τ).loc main_arg9) := by
  have e0 := SA_arg9 m c
  show after LB (SA m c) (Proc.devRef .tc main_arg9) = _
  generalize SA m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SB_arg10 : SB m c (Proc.devRef .tc main_arg10) = m ((c.tc : Thread nD τ).loc main_arg10) := by
  have e0 := SA_arg10 m c
  show after LB (SA m c) (Proc.devRef .tc main_arg10) = _
  generalize SA m c = V at e0 ⊢
  simp only [LA, LB, LC, LD, LE, ops, List.take_succ_cons, List.take_zero, List.drop_succ_cons, List.drop_zero]
  after_results_simp
  all_goals (try simp only [e0])
  all_goals (try rfl)

/-! ## Through the first round -/

set_option maxHeartbeats 4000000 in
theorem SC_v45 : SC m c (Proc.devRef .tc main_v45) = Stage.scale (F := Ideal) (m ((c.tc : Thread nD τ).loc main_arg8)) := by
  have e0 := SB_arg8 m c
  show after LC (SB m c) (Proc.devRef .tc main_v45) = _
  generalize SB m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SC_v76 : SC m c (Proc.devRef .tc main_v76) = R1 m c := by
  have e0 := SB_arg8 m c
  have e1 := SB_v37 m c
  have e2 := SB_v3 m c
  have e3 := SB_v31 m c
  have e4 := SB_v1 m c
  show after LC (SB m c) (Proc.devRef .tc main_v76) = _
  generalize SB m c = V at e0 e1 e2 e3 e4 ⊢
  simp only [LA, LB, LC, LD, LE, ops, List.take_succ_cons, List.take_zero, List.drop_succ_cons, List.drop_zero]
  after_results_simp
  all_goals (try simp only [e0, e1, e2, e3, e4])
  all_goals (try rfl)

set_option maxHeartbeats 4000000 in
theorem SC_v1 : SC m c (Proc.devRef .tc main_v1) = Stage.row (F := Ideal) (m ((c.tc : Thread nD τ).loc main_arg1)) := by
  have e0 := SB_v1 m c
  show after LC (SB m c) (Proc.devRef .tc main_v1) = _
  generalize SB m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SC_v3 : SC m c (Proc.devRef .tc main_v3) = Stage.col (F := Ideal) (m ((c.tc : Thread nD τ).loc main_arg1)) := by
  have e0 := SB_v3 m c
  show after LC (SB m c) (Proc.devRef .tc main_v3) = _
  generalize SB m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SC_v31 : SC m c (Proc.devRef .tc main_v31) = broadcastInDim S1600000x1 ![0] bcast_S1600000_S1600000x1_0 (Stage.g1 (F := Ideal) (m ((c.tc : Thread nD τ).loc main_arg1))) := by
  have e0 := SB_v31 m c
  show after LC (SB m c) (Proc.devRef .tc main_v31) = _
  generalize SB m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SC_v37 : SC m c (Proc.devRef .tc main_v37) = R0 m c := by
  have e0 := SB_v37 m c
  show after LC (SB m c) (Proc.devRef .tc main_v37) = _
  generalize SB m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SC_arg9 : SC m c (Proc.devRef .tc main_arg9) = m ((c.tc : Thread nD τ).loc main_arg9) := by
  have e0 := SB_arg9 m c
  show after LC (SB m c) (Proc.devRef .tc main_arg9) = _
  generalize SB m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SC_arg10 : SC m c (Proc.devRef .tc main_arg10) = m ((c.tc : Thread nD τ).loc main_arg10) := by
  have e0 := SB_arg10 m c
  show after LC (SB m c) (Proc.devRef .tc main_arg10) = _
  generalize SB m c = V at e0 ⊢
  simp only [LA, LB, LC, LD, LE, ops, List.take_succ_cons, List.take_zero, List.drop_succ_cons, List.drop_zero]
  after_results_simp
  all_goals (try simp only [e0])
  all_goals (try rfl)

/-! ## Through the second round -/

set_option maxHeartbeats 4000000 in
theorem SD_v107 : SD m c (Proc.devRef .tc main_v107) = R2 m c := by
  have e0 := SC_v45 m c
  have e1 := SC_v37 m c
  have e2 := SC_v3 m c
  have e3 := SC_v31 m c
  have e4 := SC_v76 m c
  have e5 := SC_v1 m c
  show after LD (SC m c) (Proc.devRef .tc main_v107) = _
  generalize SC m c = V at e0 e1 e2 e3 e4 e5 ⊢
  simp only [LA, LB, LC, LD, LE, ops, List.take_succ_cons, List.take_zero, List.drop_succ_cons, List.drop_zero]
  after_results_simp
  all_goals (try simp only [e0, e1, e2, e3, e4, e5])
  all_goals (try rfl)

set_option maxHeartbeats 4000000 in
theorem SD_arg9 : SD m c (Proc.devRef .tc main_arg9) = m ((c.tc : Thread nD τ).loc main_arg9) := by
  have e0 := SC_arg9 m c
  show after LD (SC m c) (Proc.devRef .tc main_arg9) = _
  generalize SC m c = V at e0 ⊢
  simp only [LA, LB, LC, LD, LE, ops, List.take_succ_cons, List.take_zero, List.drop_succ_cons, List.drop_zero]
  after_results_simp
  all_goals (try simp only [e0])
  all_goals (try rfl)

set_option maxHeartbeats 4000000 in
theorem SD_arg10 : SD m c (Proc.devRef .tc main_arg10) = m ((c.tc : Thread nD τ).loc main_arg10) := by
  have e0 := SC_arg10 m c
  show after LD (SC m c) (Proc.devRef .tc main_arg10) = _
  generalize SC m c = V at e0 ⊢
  simp only [LA, LB, LC, LD, LE, ops, List.take_succ_cons, List.take_zero, List.drop_succ_cons, List.drop_zero]
  after_results_simp
  all_goals (try simp only [e0])
  all_goals (try rfl)

/-! ## Through the output layer -/

set_option maxHeartbeats 4000000 in
theorem SE_v113 : SE m c (Proc.devRef .tc main_v113) = ROUT m c := by
  have e0 := SD_v107 m c
  have e1 := SD_arg9 m c
  have e2 := SD_arg10 m c
  show after LE (SD m c) (Proc.devRef .tc main_v113) = _
  generalize SD m c = V at e0 e1 e2 ⊢
  simp only [LA, LB, LC, LD, LE, ops, List.take_succ_cons, List.take_zero, List.drop_succ_cons, List.drop_zero]
  after_results_simp
  all_goals (try simp only [e0, e1, e2])
  all_goals (try simp only [ofBuf_toBuf, ofBuf_cst2, ofBuf_v12, toBuf_v13, ofBuf_v36, toBuf_v37, ofBuf_v112, toBuf_v113])
  all_goals (try rfl)

set_option maxHeartbeats 4000000 in
theorem SE_v107 : SE m c (Proc.devRef .tc main_v107) = R2 m c := by
  have e0 := SD_v107 m c
  show after LE (SD m c) (Proc.devRef .tc main_v107) = _
  generalize SD m c = V at e0 ⊢
  simp only [LA, LB, LC, LD, LE, ops, List.take_succ_cons, List.take_zero, List.drop_succ_cons, List.drop_zero]
  after_results_simp
  all_goals (try simp only [e0])
  all_goals (try rfl)

/-! ## The arguments pass through the whole line -/

set_option maxHeartbeats 4000000 in
theorem kept_arg0 : after (ops (F := Ideal)) (launchContents m c) (Proc.devRef .tc main_arg0) = m ((c.tc : Thread nD τ).loc main_arg0) := by
  after_results_simp <;> rfl

set_option maxHeartbeats 4000000 in
theorem kept_arg1 : after (ops (F := Ideal)) (launchContents m c) (Proc.devRef .tc main_arg1) = m ((c.tc : Thread nD τ).loc main_arg1) := by
  after_results_simp <;> rfl

set_option maxHeartbeats 4000000 in
theorem kept_arg2 : after (ops (F := Ideal)) (launchContents m c) (Proc.devRef .tc main_arg2) = m ((c.tc : Thread nD τ).loc main_arg2) := by
  after_results_simp <;> rfl

set_option maxHeartbeats 4000000 in
theorem kept_arg3 : after (ops (F := Ideal)) (launchContents m c) (Proc.devRef .tc main_arg3) = m ((c.tc : Thread nD τ).loc main_arg3) := by
  after_results_simp <;> rfl

set_option maxHeartbeats 4000000 in
theorem kept_arg4 : after (ops (F := Ideal)) (launchContents m c) (Proc.devRef .tc main_arg4) = m ((c.tc : Thread nD τ).loc main_arg4) := by
  after_results_simp <;> rfl

set_option maxHeartbeats 4000000 in
theorem kept_arg5 : after (ops (F := Ideal)) (launchContents m c) (Proc.devRef .tc main_arg5) = m ((c.tc : Thread nD τ).loc main_arg5) := by
  after_results_simp <;> rfl

set_option maxHeartbeats 4000000 in
theorem kept_arg6 : after (ops (F := Ideal)) (launchContents m c) (Proc.devRef .tc main_arg6) = m ((c.tc : Thread nD τ).loc main_arg6) := by
  after_results_simp <;> rfl

set_option maxHeartbeats 4000000 in
theorem kept_arg7 : after (ops (F := Ideal)) (launchContents m c) (Proc.devRef .tc main_arg7) = m ((c.tc : Thread nD τ).loc main_arg7) := by
  after_results_simp <;> rfl

set_option maxHeartbeats 4000000 in
theorem kept_arg8 : after (ops (F := Ideal)) (launchContents m c) (Proc.devRef .tc main_arg8) = m ((c.tc : Thread nD τ).loc main_arg8) := by
  after_results_simp <;> rfl

set_option maxHeartbeats 4000000 in
theorem kept_arg9 : after (ops (F := Ideal)) (launchContents m c) (Proc.devRef .tc main_arg9) = m ((c.tc : Thread nD τ).loc main_arg9) := by
  after_results_simp <;> rfl

set_option maxHeartbeats 4000000 in
theorem kept_arg10 : after (ops (F := Ideal)) (launchContents m c) (Proc.devRef .tc main_arg10) = m ((c.tc : Thread nD τ).loc main_arg10) := by
  after_results_simp <;> rfl

/-! ## The reference's run -/

/-- Every weakly fair execution of the reference terminates with the log-probabilities at the output layer of the second
    round, the final embeddings at the second round, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v113) = ROUT m c
      ∧ r.2.mem ((c.tc : Thread nD τ).loc main_v107) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v113).trans ((congrFun (after_ops m c) _).trans (SE_v113 m c)),
      (h c main_v107).trans ((congrFun (after_ops m c) _).trans (SE_v107 m c)),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c)⟩)
    (ValueP.run_raw (F := Ideal) m ρ)

end Cert.ReferenceIdeal.Eval

end
-- ==== Proof.RefDense.lean ====
/-
  The reference's dense stages read at an index.

  At (r, j):
    the dense layer   max (x·W1ᵀ + b1 spread over the rows, 0)  is  max (Σ_k x[r,k]·W1ᵀ[k,j] + b1[j]) 0,
    a round's update  (s spread over the rows)·raw + agg         is  s[0,j]·raw[r,j] + agg[r,j],
    the logits        h·W2ᵀ + b2 spread over the rows            is  Σ_k h[r,k]·W2ᵀ[k,j] + b2[j],
  the row maximum taken from −∞ and joined once more with −∞ is the fold of max from −∞ over the row, the row sum from 0
  is the sum over the row, and a row statistic kept as a column and spread back reads at (r, j) the statistic at r.
  So the three stages are lin, upd and fin of the same arrays, the bias read as the row [1, ·] whose entry (0, j) is
  b[j]. The message with the factor −1 is the message of the negated normalisation: (−1)·a = −a.
-/
import proofs.«141536_j6889127543055_1_alg».proof.Proof.RefStages

set_option maxRecDepth 16384

noncomputable section

namespace Cert.ReferenceIdeal.Stage

open Cert.ReferenceIdeal Idealize.ShloMosaic Idealize.ShloMosaic.ValueIdx Cert.Stages
open Cert.ReferenceIdeal.Facts₀ Cert.ReferenceIdeal.Facts

/-! ## Broadcasts read at an index -/

/-- A [1, 64] row spread over the 100000 rows reads, at (r, j), the row at (0, j). -/
theorem spread64 (v : FVec Ideal S1x64 .f32) (r : Fin 100000) (j : Fin 64) :
    broadcastInDim S100000x64 ![0, 1] bcast_S1x64_S100000x64_0_1 v (ix2 r j) = v (ix2 (0 : Fin 1) j) := by
  refine broadcastInDim_apply _ _ v (ix2 r j) (ix2 (0 : Fin 1) j) fun a => ?_
  match a with
  | ⟨0, _⟩ => rfl
  | ⟨1, _⟩ => rfl

/-- A [1, 40] row spread over the 100000 rows reads, at (r, j), the row at (0, j). -/
theorem spread40 (v : FVec Ideal S1x40 .f32) (r : Fin 100000) (j : Fin 40) :
    broadcastInDim S100000x40 ![0, 1] bcast_S1x40_S100000x40_0_1 v (ix2 r j) = v (ix2 (0 : Fin 1) j) := by
  refine broadcastInDim_apply _ _ v (ix2 r j) (ix2 (0 : Fin 1) j) fun a => ?_
  match a with
  | ⟨0, _⟩ => rfl
  | ⟨1, _⟩ => rfl

/-- A [64] vector as the row [1, 64] reads, at (0, j), the vector at j. -/
theorem asRow64 (v : FVec Ideal S64 .f32) (j : Fin 64) :
    broadcastInDim S1x64 ![1] bcast_S64_S1x64_1 v (ix2 (0 : Fin 1) j) = v (ix1 j) := by
  refine broadcastInDim_apply _ _ v (ix2 (0 : Fin 1) j) (ix1 j) fun a => ?_
  match a with
  | ⟨0, _⟩ => rfl

/-- A [40] vector as the row [1, 40] reads, at (0, j), the vector at j. -/
theorem asRow40 (v : FVec Ideal S40 .f32) (j : Fin 40) :
    broadcastInDim S1x40 ![1] bcast_S40_S1x40_1 v (ix2 (0 : Fin 1) j) = v (ix1 j) := by
  refine broadcastInDim_apply _ _ v (ix2 (0 : Fin 1) j) (ix1 j) fun a => ?_
  match a with
  | ⟨0, _⟩ => rfl

/-- A [100000] vector kept as a column and spread over 40 columns reads, at (r, j), the vector at r. -/
theorem column40 (v : FVec Ideal S100000 .f32) (r : Fin 100000) (j : Fin 40) :
    broadcastInDim S100000x40 ![0, 1] bcast_S100000x1_S100000x40_0_1 (broadcastInDim S100000x1 ![0] bcast_S100000_S100000x1_0 v) (ix2 r j) = v (ix1 r) := by
  refine (broadcastInDim_apply _ _ _ (ix2 r j) (ix2 r (0 : Fin 1)) fun a => ?_).trans
    (broadcastInDim_apply _ _ v (ix2 r (0 : Fin 1)) (ix1 r) fun a => ?_)
  · match a with
    | ⟨0, _⟩ => rfl
    | ⟨1, _⟩ => rfl
  · match a with
    | ⟨0, _⟩ => rfl

/-! ## The two products -/

theorem dr0_lhs0 (i : S100000x64.Idx) (q : dot_S100000x512_S512x64_S100000x64_1_0_0_1_n_n.contr.Idx) : (dot_S100000x512_S512x64_S100000x64_1_0_0_1_n_n.lhsIdx i q 0).val = (i 0).val := by
  unfold DotDims.lhsIdx
  rw [dif_neg (show ¬(0 : Fin S100000x512.rank) ∈ dot_S100000x512_S512x64_S100000x64_1_0_0_1_n_n.lhsBatch by decide), dif_pos (show (0 : Fin S100000x512.rank) ∈ dot_S100000x512_S512x64_S100000x64_1_0_0_1_n_n.lhsNonContracting by decide)]
  rfl

theorem dr0_rhs1 (i : S100000x64.Idx) (q : dot_S100000x512_S512x64_S100000x64_1_0_0_1_n_n.contr.Idx) : (dot_S100000x512_S512x64_S100000x64_1_0_0_1_n_n.rhsIdx i q 1).val = (i 1).val := by
  unfold DotDims.rhsIdx
  rw [dif_neg (show ¬(1 : Fin S512x64.rank) ∈ dot_S100000x512_S512x64_S100000x64_1_0_0_1_n_n.rhsBatch by decide), dif_pos (show (1 : Fin S512x64.rank) ∈ dot_S100000x512_S512x64_S100000x64_1_0_0_1_n_n.rhsNonContracting by decide)]
  rfl

/-- The [100000, 512] × [512, 64] product at (r, j): Σ_k A[r,k]·B[k,j]. -/
theorem dr0_apply (A : FVec Ideal S100000x512 .f32) (B : FVec Ideal S512x64 .f32) (r : Fin 100000) (j : Fin 64) :
    Host.dotGeneral dot_S100000x512_S512x64_S100000x64_1_0_0_1_n_n none A B (ix2 r j) = ∑ k : Fin 512, A (ix2 r k) * B (ix2 k j) := by
  simp only [Host.dotGeneral]
  rw [Ideal.dotGeneral_apply, ← Equiv.sum_comp (contrEquiv1 dot_S100000x512_S512x64_S100000x64_1_0_0_1_n_n 512 rfl rfl).symm]
  refine Finset.sum_congr rfl fun k _ => ?_
  have hk := contrEquiv1_symm_val dot_S100000x512_S512x64_S100000x64_1_0_0_1_n_n 512 rfl rfl k
  have el : dot_S100000x512_S512x64_S100000x64_1_0_0_1_n_n.lhsIdx (ix2 r j) ((contrEquiv1 dot_S100000x512_S512x64_S100000x64_1_0_0_1_n_n 512 rfl rfl).symm k) = ix2 r k := funext fun a => Fin.ext (by
    match a with
    | ⟨0, _⟩ => exact dr0_lhs0 _ _
    | ⟨1, _⟩ => exact (dot_S100000x512_S512x64_S100000x64_1_0_0_1_n_n.lhsIdx_val_of_single rfl _ _).trans hk)
  have er : dot_S100000x512_S512x64_S100000x64_1_0_0_1_n_n.rhsIdx (ix2 r j) ((contrEquiv1 dot_S100000x512_S512x64_S100000x64_1_0_0_1_n_n 512 rfl rfl).symm k) = ix2 k j := funext fun a => Fin.ext (by
    match a with
    | ⟨0, _⟩ => exact (dot_S100000x512_S512x64_S100000x64_1_0_0_1_n_n.rhsIdx_val_of_single rfl _ _).trans hk
    | ⟨1, _⟩ => exact dr0_rhs1 _ _)
  rw [el, er]

theorem dr3_lhs0 (i : S100000x40.Idx) (q : dot_S100000x64_S64x40_S100000x40_1_0_0_1_n_n.contr.Idx) : (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl

theorem dr3_rhs1 (i : S100000x40.Idx) (q : dot_S100000x64_S64x40_S100000x40_1_0_0_1_n_n.contr.Idx) : (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- The [100000, 64] × [64, 40] product at (r, j): Σ_k A[r,k]·B[k,j]. -/
theorem dr3_apply (A : FVec Ideal S100000x64 .f32) (B : FVec Ideal S64x40 .f32) (r : Fin 100000) (j : Fin 40) :
    Host.dotGeneral dot_S100000x64_S64x40_S100000x40_1_0_0_1_n_n none A B (ix2 r j) = ∑ k : Fin 64, A (ix2 r k) * B (ix2 k j) := by
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 r j) ((contrEquiv1 dot_S100000x64_S64x40_S100000x40_1_0_0_1_n_n 64 rfl rfl).symm k) = ix2 r k := funext fun a => Fin.ext (by
    match a with
    | ⟨0, _⟩ => exact dr3_lhs0 _ _
    | ⟨1, _⟩ => exact (dot_S100000x64_S64x40_S100000x40_1_0_0_1_n_n.lhsIdx_val_of_single rfl _ _).trans hk)
  have er : dot_S100000x64_S64x40_S100000x40_1_0_0_1_n_n.rhsIdx (ix2 r j) ((contrEquiv1 dot_S100000x64_S64x40_S100000x40_1_0_0_1_n_n 64 rfl rfl).symm k) = ix2 k j := funext fun a => Fin.ext (by
    match a with
    | ⟨0, _⟩ => exact (dot_S100000x64_S64x40_S100000x40_1_0_0_1_n_n.rhsIdx_val_of_single rfl _ _).trans hk
    | ⟨1, _⟩ => exact dr3_rhs1 _ _)
  rw [el, er]

/-! ## The stages -/

/-- The reference's dense layer is lin of the transposed weight and any row whose entry (0, j) is b[j]. -/
theorem refH0_eq (x0 : FVec Ideal S100000x512 .f32) (x2 : FVec Ideal S64x512 .f32) (x3 : FVec Ideal S64 .f32)
    (b : FVec Ideal S1x64 .f32) (hb : ∀ j : Fin 64, b (ix2 (0 : Fin 1) j) = x3 (ix1 j)) :
    refH0 x0 x2 x3 = lin x0 (transpose S512x64 [1, 0] x2 transposes_S64x512_S512x64_1_0) b := by
  funext i
  obtain ⟨r, j, rfl⟩ : ∃ (r : Fin 100000) (j : Fin 64), i = ix2 r j := ⟨i 0, i 1, eq_ix2 i⟩
  rw [lin_apply]
  unfold refH0 linAt
  rw [hb j]
  exact congrArg₂ max (congrArg₂ (· + ·) (dr0_apply x0 _ r j) ((spread64 _ r j).trans (asRow64 x3 j))) rfl

/-- The reference's round is upd of the scatter-added messages. -/
theorem refRound_eq (x1 : (⟨S2x1600000, .i32⟩ : BufTy).Contents (Elt Ideal)) (h raw : FVec Ideal S100000x64 .f32) (x8 : FVec Ideal S1x64 .f32) :
    refRound x1 h raw x8 = upd (scat x1 (refMsg x1 h)) raw (scale x8) := by
  funext i
  obtain ⟨r, j, rfl⟩ : ∃ (r : Fin 100000) (j : Fin 64), i = ix2 r j := ⟨i 0, i 1, eq_ix2 i⟩
  rw [upd_apply]
  unfold refRound updAt
  exact congrArg₂ (· + ·) (congrArg₂ (· * ·) (spread64 _ r j) rfl) rfl

/-- A per-edge value spread over the 64 channels reads, at (p, j), the value at p. -/
theorem toCols_apply (v : FVec Ideal S1600000 .f32) (p : Fin 1600000) (j : Fin 64) : toCols v (ix2 p j) = v (ix1 p) := by
  unfold toCols
  refine (broadcastInDim_apply _ _ _ (ix2 p j) (ix2 p (0 : Fin 1)) fun a => ?_).trans
    (broadcastInDim_apply _ _ v (ix2 p (0 : Fin 1)) (ix1 p) fun a => ?_)
  · match a with
    | ⟨0, _⟩ => rfl
    | ⟨1, _⟩ => rfl
  · match a with
    | ⟨0, _⟩ => rfl

/-- (−1)·a = −a, edge by edge and channel by channel: for any per-edge values G and any per-edge rows R. -/
theorem negCols (G : FVec Ideal S1600000 .f32) (R : FVec Ideal S1600000x64 .f32) :
    mulf (mulf (broadcastInDim S1600000x64 ![] bcast_S_S1600000x64 (constant S_ .f32 0xBF800000#32)) (toCols G)) R
      = mulf (toCols (Host.negf G)) R := by
  funext e
  obtain ⟨p, j, rfl⟩ : ∃ (p : Fin 1600000) (j : Fin 64), e = ix2 p j := ⟨e 0, e 1, eq_ix2 e⟩
  show (Ideal.ofBits .f32 0xBF800000#32 * toCols G (ix2 p j)) * R (ix2 p j) = toCols (Host.negf G) (ix2 p j) * R (ix2 p j)
  rw [toCols_apply, toCols_apply]
  show (Ideal.ofBits .f32 0xBF800000#32 * G (ix1 p)) * R (ix2 p j) = (-(G (ix1 p))) * R (ix2 p j)
  rw [negOne_mul]

/-- The message with the factor −1 is the message of the negated normalisation. -/
theorem refMsg_eq (x1 : (⟨S2x1600000, .i32⟩ : BufTy).Contents (Elt Ideal)) (h : FVec Ideal S100000x64 .f32) :
    refMsg x1 h = negMsg x1 h := by
  unfold refMsg negMsg
  exact negCols (g1 x1) (rows x1 h)

/-- The reference's logits at (r, j). -/
theorem refLogits_apply (h : FVec Ideal S100000x64 .f32) (x9 : FVec Ideal S40x64 .f32) (x10 : FVec Ideal S40 .f32)
    (b : FVec Ideal S1x40 .f32) (hb : ∀ j : Fin 40, b (ix2 (0 : Fin 1) j) = x10 (ix1 j)) (r : Fin 100000) (j : Fin 40) :
    refLogits h x9 x10 (ix2 r j) = logitAt h (transpose S64x40 [1, 0] x9 transposes_S40x64_S64x40_1_0) b r j := by
  unfold refLogits logitAt
  rw [hb j]
  exact congrArg₂ (· + ·) (dr3_apply h _ r j) ((spread40 _ r j).trans (asRow40 x10 j))

end Cert.ReferenceIdeal.Stage

end
-- ==== Proof.RefOut.lean ====
/-
  The reference's output layer read at an index.

  The reference takes the row maximum of the logits from −∞, joins it once more with −∞, keeps it as a column and
  subtracts it; then the row sum of the exponentials from 0, kept as a column, its logarithm, subtracted. At (r, j):
    the shifted logits are  a[r,j] − fold of max from −∞ over k of a[r,k]   (max(−∞, x) = x),
    the result is           z[r,j] − log (0 + Σ_k exp z[r,k]).
  With the logits read as Σ_k h[r,k]·W2ᵀ[k,j] + b2[j] this is the output layer fin.
-/
import proofs.«141536_j6889127543055_1_alg».proof.Proof.RefDense

set_option maxRecDepth 16384

noncomputable section

namespace Cert.ReferenceIdeal.Stage

open Cert.ReferenceIdeal Idealize.ShloMosaic Idealize.ShloMosaic.ValueIdx Cert.Stages
open Cert.ReferenceIdeal.Facts₀ Cert.ReferenceIdeal.Facts

/-- Dropping the second axis of [100000, 40] leaves [100000]. -/
theorem reduces_rows : S100000x40.Reduces [1] S100000 := by decide

/-- The index (r) with k put back on the reduced axis is (r, k). -/
theorem lift_rows (r : Fin 100000) (k : Fin 40) : reduces_rows.lift (ix1 r) k = (ix2 r k : S100000x40.Idx) :=
  funext fun c => Fin.ext (by
    match c with
    | ⟨0, _⟩ => rfl
    | ⟨1, _⟩ => rfl)

/-- The float maximum on the extended reals is max: commutative and associative. -/
instance maximumf_comm : Std.Commutative (FloatOps.maximumf (F := Ideal) (φ := .f32)) := ⟨fun a b => max_comm a b⟩
instance maximumf_assoc : Std.Associative (FloatOps.maximumf (F := Ideal) (φ := .f32)) := ⟨fun a b c => max_assoc a b c⟩

/-- The reference's row maximum at r: the fold of max from −∞ over the row. -/
theorem rowMax_ref (A : FVec Ideal S100000x40 .f32) (r : Fin 100000) :
    maximumf (broadcastInDim S100000 ![] bcast_S_S100000 (constant S_ .f32 0xFF800000#32))
        (Host.reduce FloatOps.maximumf A (constant S_ .f32 0xFF800000#32) reducesTo_S100000x40_S100000_d1 h_S_) (ix1 r)
      = (Finset.univ : Finset (Fin 40)).fold max (Ideal.ofBits .f32 0xFF800000#32) (fun k => A (ix2 r k)) := by
  rw [maximumf_apply, Host.reduce_eq_fold_single FloatOps.maximumf A _ reducesTo_S100000x40_S100000_d1 reduces_rows h_S_ (ix1 r)]
  have hrow : (A ∘ reduces_rows.lift (ix1 r)) = fun k => A (ix2 r k) := funext fun k => congrArg A (lift_rows r k)
  rw [hrow]
  exact max_negInf _

/-- The reference's row sum of a matrix at r: 0 plus the sum over the row. -/
theorem rowSum_ref (B : FVec Ideal S100000x40 .f32) (r : Fin 100000) :
    Host.reduceAdd B (constant S_ .f32 0x00000000#32) reducesTo_S100000x40_S100000_d1 h_S_ (ix1 r) = ∑ k : Fin 40, B (ix2 r k) := by
  unfold Host.reduceAdd
  rw [Ideal.hostReduceAdd_def, Ideal.hostReduceAdd_single reducesTo_S100000x40_S100000_d1 reduces_rows B _ (ix1 r)]
  have h0 : constant (F := Ideal) S_ .f32 0x00000000#32 (Shape.Idx.first h_S_) = 0 := Ideal.ofBits_zero_f32
  rw [h0, zero_add]
  exact Finset.sum_congr rfl fun k _ => congrArg B (lift_rows r k)

theorem refShift_apply (A : FVec Ideal S100000x40 .f32) (r : Fin 100000) (j : Fin 40) :
    refShift A (ix2 r j) = A (ix2 r j) - (Finset.univ : Finset (Fin 40)).fold max (Ideal.ofBits .f32 0xFF800000#32) (fun k => A (ix2 r k)) := by
  unfold refShift
  exact congrArg (A (ix2 r j) - ·) ((column40 _ r j).trans (rowMax_ref A r))

/-- A column with the logarithm taken on it, spread back over 40 columns, reads at (r, j) the logarithm of the vector at r. -/
theorem logColumn40 (v : FVec Ideal S100000 .f32) (r : Fin 100000) (j : Fin 40) :
    broadcastInDim S100000x40 ![0, 1] bcast_S100000x1_S100000x40_0_1 (Host.log (broadcastInDim S100000x1 ![0] bcast_S100000_S100000x1_0 v)) (ix2 r j)
      = Ideal.log (v (ix1 r)) := by
  refine (broadcastInDim_apply _ _ _ (ix2 r j) (ix2 r (0 : Fin 1)) fun a => ?_).trans
    (congrArg Ideal.log (broadcastInDim_apply _ _ v (ix2 r (0 : Fin 1)) (ix1 r) fun a => ?_))
  · match a with
    | ⟨0, _⟩ => rfl
    | ⟨1, _⟩ => rfl
  · match a with
    | ⟨0, _⟩ => rfl

theorem refLsm_apply (Z : FVec Ideal S100000x40 .f32) (r : Fin 100000) (j : Fin 40) :
    refLsm Z (ix2 r j) = Z (ix2 r j) - Ideal.log (∑ k : Fin 40, Ideal.exp (Z (ix2 r k))) := by
  unfold refLsm
  exact congrArg (Z (ix2 r j) - ·) ((logColumn40 _ r j).trans (congrArg Ideal.log (rowSum_ref (Host.exp Z) r)))

/-- The reference's output layer is fin of the transposed weight and any row whose entry (0, j) is b[j]. -/
theorem refOut_eq (h : FVec Ideal S100000x64 .f32) (x9 : FVec Ideal S40x64 .f32) (x10 : FVec Ideal S40 .f32)
    (b : FVec Ideal S1x40 .f32) (hb : ∀ j : Fin 40, b (ix2 (0 : Fin 1) j) = x10 (ix1 j)) :
    refOut h x9 x10 = fin h (transpose S64x40 [1, 0] x9 transposes_S40x64_S64x40_1_0) b := by
  funext i
  obtain ⟨r, j, rfl⟩ : ∃ (r : Fin 100000) (j : Fin 40), i = ix2 r j := ⟨i 0, i 1, eq_ix2 i⟩
  rw [fin_apply]
  unfold refOut
  rw [refLsm_apply]
  simp only [refShift_apply, refLogits_apply h x9 x10 b hb]
  rfl

end Cert.ReferenceIdeal.Stage

end
-- ==== Proof.Bridge.lean ====
/-
  The two programs compute the same arrays.

  With the argument arrays equal, the reference's stages and the idealized kernel's are the same functions:
    the dense layer: the reference's max(x·W1ᵀ + b1, 0) is lin x W1ᵀ b, for the bias read as the row whose entry (0, j)
      is b1[j] — the kernel's reshape of b1 is such a row;
    a round: the reference's scale·raw + scatter-add of ((−1)·g)·rows is upd of the scatter-add of (−g)·rows, the same
      gathers and the same scatter-add applied to equal arrays, and (−1)·a = −a;
    the output layer: the reference's log-softmax of h·W2ᵀ + b2 is fin h W2ᵀ b, the maximum from −∞ joined with −∞
      being the maximum.
  So R0 = H0, then R1 = H1, R2 = H2 and the log-probabilities agree, entry by entry, on the extended reals; no entry's
  finiteness is used.
-/
import proofs.«141536_j6889127543055_1_alg».proof.Proof.Fold
import proofs.«141536_j6889127543055_1_alg».proof.Proof.RefEval
import proofs.«141536_j6889127543055_1_alg».proof.Proof.RefDense
import proofs.«141536_j6889127543055_1_alg».proof.Proof.RefOut
import Idealize.ShloMosaic.Lib.ValueLayout

set_option maxRecDepth 16384

noncomputable section

namespace Cert.Bridge

open Idealize.ShloMosaic Idealize.ShloMosaic.TcCoe Idealize.ShloMosaic.ValueIdx Idealize.SL.Sem Cert.Stages

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's reshape of a [64] vector to a row reads, at (0, j), the vector at j. -/
theorem row64 (v : FVec Ideal Cert.KernelIdeal.S64 .f32) (j : Fin 64) :
    shapeCast Cert.KernelIdeal.S1x64 v Cert.KernelIdeal.Gen.shapeCasts_S64_S1x64 (ix2 (0 : Fin 1) j) = v (ix1 j) :=
  shapeCast_a_1a_apply v _ 0 j

/-- The kernel's reshape of a [40] vector to a row reads, at (0, j), the vector at j. -/
theorem row40 (v : FVec Ideal Cert.KernelIdeal.S40 .f32) (j : Fin 40) :
    shapeCast Cert.KernelIdeal.S1x40 v Cert.KernelIdeal.Gen.shapeCasts_S40_S1x40 (ix2 (0 : Fin 1) j) = v (ix1 j) :=
  shapeCast_a_1a_apply v _ 0 j

variable
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
  (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))

include h0 h2 h3 in
/-- The dense layers agree. -/
theorem dense_eq : Cert.ReferenceIdeal.Eval.R0 m' c = Cert.KernelIdeal.Fold.H0 m c := by
  unfold Cert.ReferenceIdeal.Eval.R0 Cert.KernelIdeal.Fold.H0
  rw [h0, h2, h3]
  exact Cert.ReferenceIdeal.Stage.refH0_eq _ _ _ _ (row64 _)

include h0 h1 h2 h3 h8 in
/-- The first rounds agree. -/
theorem round1_eq : Cert.ReferenceIdeal.Eval.R1 m' c = Cert.KernelIdeal.Fold.H1 m c := by
  unfold Cert.ReferenceIdeal.Eval.R1 Cert.KernelIdeal.Fold.H1
  rw [dense_eq m m' c h0 h2 h3, h1, h8, Cert.ReferenceIdeal.Stage.refRound_eq, Cert.ReferenceIdeal.Stage.refMsg_eq]

include h0 h1 h2 h3 h8 in
/-- The second rounds agree: the second result. -/
theorem round2_eq : Cert.ReferenceIdeal.Eval.R2 m' c = Cert.KernelIdeal.Fold.H2 m c := by
  unfold Cert.ReferenceIdeal.Eval.R2 Cert.KernelIdeal.Fold.H2
  rw [round1_eq m m' c h0 h1 h2 h3 h8, dense_eq m m' c h0 h2 h3, h1, h8, Cert.ReferenceIdeal.Stage.refRound_eq, Cert.ReferenceIdeal.Stage.refMsg_eq]

include h0 h1 h2 h3 h8 h9 h10 in
/-- The log-probabilities agree: the first result. -/
theorem out_eq : Cert.ReferenceIdeal.Eval.ROUT m' c = Cert.KernelIdeal.Fold.OUT m c := by
  unfold Cert.ReferenceIdeal.Eval.ROUT Cert.KernelIdeal.Fold.OUT
  rw [round2_eq m m' c h0 h1 h2 h3 h8, h9, h10]
  exact Cert.ReferenceIdeal.Stage.refOut_eq _ _ _ _ (row40 _)

end Cert.Bridge

end
-- ==== Proof.lean ====
/-
  The certificate: the kernel against its reference, on the extended reals.

  The network is a dense layer with a rectifier, two rounds of message passing along the edges, and a log-softmax
  output layer: H0 = max(x·W1ᵀ + b1, 0); a round sends along every edge e the source's embedding scaled by −g(e), g the
  product of the two end points' degree factors, adds the messages up at the targets and adds s·H0, s the residual
  scale; the output is the log-softmax of H2·W2ᵀ + b2, returned with H2. The kernel computes the three dense stages in
  tiled regions of 2000, 4000 and 5000 rows and leaves the gathers and scatter-adds to the host; the reference is one
  line of array operations, with the factor −1 spelt as a multiplication.

  Frames: the word-level kernel and its idealization by the generated frames; the reference by its run with the results
  dropped. The ideal pass rewrote nothing, so the idealization claim is empty. The equivalence: the idealized kernel ends
  with the log-probabilities at fin H2 W2ᵀ b2 and the embeddings at H2 (its buffers folded through @main's ten segments),
  the reference with the same two arrays (its line evaluated in five pieces), since the dense stages are the same
  row-wise functions and (−1)·a = −a on every extended real. The precondition is not used.
-/
import proofs.«141536_j6889127543055_1_alg».proof.Defs
import proofs.«141536_j6889127543055_1_alg».proof.Proof.Gen.Kernel
import proofs.«141536_j6889127543055_1_alg».proof.Proof.Gen.Kernel.Frame
import proofs.«141536_j6889127543055_1_alg».proof.Proof.Gen.KernelIdeal
import proofs.«141536_j6889127543055_1_alg».proof.Proof.Gen.KernelIdeal.Frame
import proofs.«141536_j6889127543055_1_alg».proof.Proof.Gen.ReferenceIdeal
import proofs.«141536_j6889127543055_1_alg».proof.Proof.Gen.Pre_finite_inputs
import proofs.«141536_j6889127543055_1_alg».proof.Proof.KernelRun
import proofs.«141536_j6889127543055_1_alg».proof.Proof.Fold
import proofs.«141536_j6889127543055_1_alg».proof.Proof.RefEval
import proofs.«141536_j6889127543055_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_reference : Cert.frame_ReferenceIdeal := fun m ρ _ =>
  (θ_run Cert.ReferenceIdeal.defs _ _).mono (fun _ h c => (h c).2.2) (Cert.ReferenceIdeal.Eval.run m ρ)

theorem preserves : Cert.preserves_Kernel_KernelIdeal := trivial

/-- Both programs end with the log-probabilities at the output layer of the second round and the embeddings at the second
    round, computed from equal arguments. -/
theorem algebraic : Cert.algebraic_KernelIdeal_ReferenceIdeal := by
  intro m ρ m' ρ' _ hagree
  refine ⟨fun c => Cert.KernelIdeal.Fold.OUT m c, fun c => Cert.KernelIdeal.Fold.H2 m c, ?_, ?_⟩
  · refine (θ_run Cert.KernelIdeal.defs _ _).mono (fun r h c => ?_) (Cert.KernelIdeal.Whole.run_results (F := Ideal) m ρ)
    obtain ⟨h73, h70, hargs⟩ := h c
    exact ⟨h73.trans (Cert.KernelIdeal.Fold.W10_v73 m ρ c), h70.trans (Cert.KernelIdeal.Fold.W10_v70 m ρ c), hargs⟩
  · refine (θ_run Cert.ReferenceIdeal.defs _ _).mono (fun r h c => ?_) (Cert.ReferenceIdeal.Eval.run m' ρ')
    obtain ⟨h113, h107, hargs⟩ := h c
    obtain ⟨a0, a1, a2, a3, a4, a5, a6, a7, a8, a9, a10⟩ := hagree c
    exact ⟨h113.trans (Cert.Bridge.out_eq m m' c a0 a1 a2 a3 a8 a9 a10), h107.trans (Cert.Bridge.round2_eq m m' c a0 a1 a2 a3 a8), hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
